-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel

variable [Facts]

def fn {F : FTy → Type} [FloatOps F] (main_arg0 : FVec F S16x4096x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  main_v3
-- ==== Kernel.lean ====
abbrev S16x4096x128 : Shape := ⟨3, ![16, 4096, 128]⟩
abbrev S16x4096x1152 : Shape := ⟨3, ![16, 4096, 1152]⟩
abbrev S1x4096x128 : Shape := ⟨3, ![1, 4096, 128]⟩
abbrev S1x512x1152 : Shape := ⟨3, ![1, 512, 1152]⟩
abbrev S4112x128 : Shape := ⟨2, ![4112, 128]⟩
abbrev S8x128 : Shape := ⟨2, ![8, 128]⟩
abbrev S4096x128 : Shape := ⟨2, ![4096, 128]⟩
abbrev S512x128 : Shape := ⟨2, ![512, 128]⟩
abbrev S512x1152 : Shape := ⟨2, ![512, 1152]⟩

abbrev nBuf : Space → Nat
  | .hbm => 2
  | .vmem => 5
  | .smem => 0
  | _ => 0

abbrev bufTy : (tb : Table) → Fin (tcTables nBuf tb) → BufTy
  | .hbm, ⟨0, _⟩ => ⟨S16x4096x128, .f32⟩
  | .hbm, ⟨1, _⟩ => ⟨S16x4096x1152, .f32⟩
  | .local _ .vmem, ⟨0, _⟩ => ⟨S1x4096x128, .f32⟩
  | .local _ .vmem, ⟨1, _⟩ => ⟨S1x4096x128, .f32⟩
  | .local _ .vmem, ⟨2, _⟩ => ⟨S1x512x1152, .f32⟩
  | .local _ .vmem, ⟨3, _⟩ => ⟨S1x512x1152, .f32⟩
  | .local _ .vmem, ⟨4, _⟩ => ⟨S4112x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def k0_off1 (i : grid0.Coords) (c_m3_i32 : BitVec 32) : Fin 2 → Nat :=
  let arg1 : BitVec 32 := BitVec.ofNat 32 (i 1).val
  let c512_i32 : BitVec 32 := 512#32
  let v3 : BitVec 32 := Scalar.muli arg1 c512_i32
  let c8_i32 : BitVec 32 := 8#32
  let v4 : BitVec 32 := Scalar.addi v3 c8_i32
  let v5 : BitVec 32 := Scalar.addi v4 c_m3_i32
  let v6 : Index := Scalar.indexCast v5
  let c0 : Index := 0#32
  ![v6.toNat, 0]
def k0_off1_at (r : Fin 7) : BitVec 32 :=
  if r.val < 3 then
    if r.val < 1 then
      4294967293#32
    else
      if r.val < 2 then
        4294967294#32
      else
        4294967295#32
  else
    if r.val < 5 then
      if r.val < 4 then
        0#32
      else
        1#32
    else
      if r.val < 6 then
        2#32
      else
        3#32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S4112x128_S8x128_0_0 : ∀ a, (![0, 0] : Fin 2 → Nat) a + S8x128.size a ≤ S4112x128.size a
  h_S8x128 : 0 < S8x128.numel
  shapeCasts_S8x128_S8x128 : S8x128.ShapeCasts S8x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S4112x128_S4096x128_8_0 : ∀ a, (![8, 0] : Fin 2 → Nat) a + S4096x128.size a ≤ S4112x128.size a
  h_S4096x128 : 0 < S4096x128.numel
  shapeCasts_S4096x128_S4096x128 : S4096x128.ShapeCasts S4096x128
  inb_S4112x128_S8x128_4104_0 : ∀ a, (![4104, 0] : Fin 2 → Nat) a + S8x128.size a ≤ S4112x128.size a
  h_S512x128 : 0 < S512x128.numel
  concatenates_S512x128_S512x128_S512x128_S512x128_S512x128_S512x128_S512x128_S512x128_S512x128_S512x1152_d1 : Shape.Concatenates [S512x128, S512x128, S512x128, S512x128, S512x128, S512x128, S512x128, S512x128, S512x128] S512x1152 1
  inb_S1x512x1152_S1x512x1152_0_0_0 : ∀ a, (![0, 0, 0] : Fin 3 → Nat) a + S1x512x1152.size a ≤ S1x512x1152.size a
  h_S1x512x1152 : 0 < S1x512x1152.numel
  shapeCasts_S1x512x1152_S512x1152 : S1x512x1152.ShapeCasts S512x1152
  shapeCasts_S512x1152_S1x512x1152 : S512x1152.ShapeCasts S1x512x1152
  hrank0 : 0 < grid0.rank
  k0_off1_inb : ∀ i : grid0.Coords, ∀ (r : Fin 7), ∀ a, (k0_off1 i (k0_off1_at r)) a + S512x128.size a ≤ S4112x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S16x4096x128.size a
  hwx0_0 : ∀ i : grid0.Coords, EltTy.bits .f32 = 32 ∨ (Rect.block (s := S16x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1152.size a ≤ S16x4096x1152.size a
  hwx0_1 : ∀ i : grid0.Coords, EltTy.bits .f32 = 32 ∨ (Rect.block (s := S16x4096x1152) S1x512x1152.size (cc0_transform_1 i) (hinb0_1 i)).WholeWords (EltTy.packing .f32)

variable [Facts₀]

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1152.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S_ : Shape := ⟨0, ![]⟩
abbrev S16x4102x128 : Shape := ⟨3, ![16, 4102, 128]⟩
abbrev S16x4096x1152 : Shape := ⟨3, ![16, 4096, 1152]⟩

abbrev nBuf : Space → Nat
  | .hbm => 14
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S_, .i32⟩
  | .hbm, ⟨2, _⟩ => ⟨S_, .f32⟩
  | .hbm, ⟨3, _⟩ => ⟨S16x4102x128, .f32⟩
  | .hbm, ⟨4, _⟩ => ⟨S16x4096x128, .f32⟩
  | .hbm, ⟨5, _⟩ => ⟨S16x4096x128, .f32⟩
  | .hbm, ⟨6, _⟩ => ⟨S16x4096x128, .f32⟩
  | .hbm, ⟨7, _⟩ => ⟨S16x4096x128, .f32⟩
  | .hbm, ⟨8, _⟩ => ⟨S16x4096x128, .f32⟩
  | .hbm, ⟨9, _⟩ => ⟨S16x4096x128, .f32⟩
  | .hbm, ⟨10, _⟩ => ⟨S16x4096x128, .f32⟩
  | .hbm, ⟨11, _⟩ => ⟨S16x4096x128, .f32⟩
  | .hbm, ⟨12, _⟩ => ⟨S16x4096x128, .f32⟩
  | .hbm, ⟨13, _⟩ => ⟨S16x4096x1152, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  pads_S16x4096x128_S16x4102x128_000_330_000 : S16x4096x128.Pads (![0, 3, 0] : Fin 3 → Nat) ![0, 3, 0] ![0, 0, 0] S16x4102x128
  h_S_ : 0 < S_.numel
  slices_S16x4102x128_S16x4096x128_0_0_0 : S16x4102x128.Slices ![0, 0, 0] S16x4096x128
  slices_S16x4102x128_S16x4096x128_0_1_0 : S16x4102x128.Slices ![0, 1, 0] S16x4096x128
  slices_S16x4102x128_S16x4096x128_0_2_0 : S16x4102x128.Slices ![0, 2, 0] S16x4096x128
  slices_S16x4102x128_S16x4096x128_0_3_0 : S16x4102x128.Slices ![0, 3, 0] S16x4096x128
  slices_S16x4102x128_S16x4096x128_0_4_0 : S16x4102x128.Slices ![0, 4, 0] S16x4096x128
  slices_S16x4102x128_S16x4096x128_0_5_0 : S16x4102x128.Slices ![0, 5, 0] S16x4096x128
  slices_S16x4102x128_S16x4096x128_0_6_0 : S16x4102x128.Slices ![0, 6, 0] S16x4096x128
  concatenates_S16x4096x128_S16x4096x128_S16x4096x128_S16x4096x128_S16x4096x128_S16x4096x128_S16x4096x128_S16x4096x128_S16x4096x128_S16x4096x1152_d2 : Shape.Concatenates [S16x4096x128, S16x4096x128, S16x4096x128, S16x4096x128, S16x4096x128, S16x4096x128, S16x4096x128, S16x4096x128, S16x4096x128] S16x4096x1152 2

variable [Facts₀]

class Facts : Prop extends Facts₀ where

variable [Facts]
-- ==== Proof.OffsetsKernel.lean ====
/-
  The rows the body's nine window loads start at, in closed form.

  At grid point `(b, l)` the body reads, for each of the nine slots, the 512 rows of the padded sequence that start at row
  `512·l + 8 + o`, `o` the slot's shift (`-3 … 3`, as a 32-bit word). The program computes that row by word arithmetic on
  `l`; since `l < 8` nothing wraps, and the start row is the natural number `512·l + 5 … 512·l + 11`.
-/
import proofs.«109366_j72507637891620_1_alg».proof.Kernel
import Idealize.ShloMosaic.Lib.Exec.Geometry

namespace Cert.Kernel.Offsets

open Idealize.ShloMosaic Cert.Kernel

/-- The start row as a word computation on the tile number `l`, for a shift word `c`. -/
def row (l : Nat) (c : BitVec 32) : Nat :=
  (Scalar.indexCast (Scalar.addi (Scalar.addi (Scalar.muli (BitVec.ofNat 32 l) 512#32) 8#32) c) : Index).toNat

theorem off_eq (i : grid0.Coords) (c : BitVec 32) : k0_off1 i c = ![row (i 1).val c, 0] := rfl

theorem row_m3 : ∀ l : Fin 8, row l.val 4294967293#32 = 512 * l.val + 5 := by decide +kernel
theorem row_m2 : ∀ l : Fin 8, row l.val 4294967294#32 = 512 * l.val + 6 := by decide +kernel
theorem row_m1 : ∀ l : Fin 8, row l.val 4294967295#32 = 512 * l.val + 7 := by decide +kernel
theorem row_0 : ∀ l : Fin 8, row l.val 0#32 = 512 * l.val + 8 := by decide +kernel
theorem row_1 : ∀ l : Fin 8, row l.val 1#32 = 512 * l.val + 9 := by decide +kernel
theorem row_2 : ∀ l : Fin 8, row l.val 2#32 = 512 * l.val + 10 := by decide +kernel
theorem row_3 : ∀ l : Fin 8, row l.val 3#32 = 512 * l.val + 11 := by decide +kernel

theorem off_m3 (i : grid0.Coords) : k0_off1 i 4294967293#32 = ![512 * (i 1).val + 5, 0] := by rw [off_eq, row_m3 (i 1)]
theorem off_m2 (i : grid0.Coords) : k0_off1 i 4294967294#32 = ![512 * (i 1).val + 6, 0] := by rw [off_eq, row_m2 (i 1)]
theorem off_m1 (i : grid0.Coords) : k0_off1 i 4294967295#32 = ![512 * (i 1).val + 7, 0] := by rw [off_eq, row_m1 (i 1)]
theorem off_0 (i : grid0.Coords) : k0_off1 i 0#32 = ![512 * (i 1).val + 8, 0] := by rw [off_eq, row_0 (i 1)]
theorem off_1 (i : grid0.Coords) : k0_off1 i 1#32 = ![512 * (i 1).val + 9, 0] := by rw [off_eq, row_1 (i 1)]
theorem off_2 (i : grid0.Coords) : k0_off1 i 2#32 = ![512 * (i 1).val + 10, 0] := by rw [off_eq, row_2 (i 1)]
theorem off_3 (i : grid0.Coords) : k0_off1 i 3#32 = ![512 * (i 1).val + 11, 0] := by rw [off_eq, row_3 (i 1)]

instance (i : grid0.Coords) : ClosedOff (k0_off1 i 4294967293#32) := ⟨_, off_m3 i⟩
instance (i : grid0.Coords) : ClosedOff (k0_off1 i 4294967294#32) := ⟨_, off_m2 i⟩
instance (i : grid0.Coords) : ClosedOff (k0_off1 i 4294967295#32) := ⟨_, off_m1 i⟩
instance (i : grid0.Coords) : ClosedOff (k0_off1 i 0#32) := ⟨_, off_0 i⟩
instance (i : grid0.Coords) : ClosedOff (k0_off1 i 1#32) := ⟨_, off_1 i⟩
instance (i : grid0.Coords) : ClosedOff (k0_off1 i 2#32) := ⟨_, off_2 i⟩
instance (i : grid0.Coords) : ClosedOff (k0_off1 i 3#32) := ⟨_, off_3 i⟩

end Cert.Kernel.Offsets
-- ==== Proof.SharedKernel.lean ====
/-
  What the two runs of the body share.

  The grid is 16 batch rows by 8 row tiles, visited batch row by batch row; point `t` is tile `t % 8` of batch row `t / 8`.
  The body rebuilds its padded copy of the batch row's sequence exactly at the first tile of each batch row, so the one
  branch of the body is taken at the points `t ≡ 0 (mod 8)` and skipped at the others.
-/
import proofs.«109366_j72507637891620_1_alg».proof.Proof.Gen.Kernel.Frame
import proofs.«109366_j72507637891620_1_alg».proof.Proof.Gen.Kernel.Skeleton
import proofs.«109366_j72507637891620_1_alg».proof.Proof.OffsetsKernel

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first tile of its batch row": the body's branch condition, as the program computes it from the
    tile coordinate. -/
abbrev firstTile (i : grid0.Coords) : Prop :=
  (Scalar.cmpi .ne (Scalar.extui (Scalar.cmpi .eq (BitVec.ofNat 32 (i 1).val) 0#32)) 0#32) = 1#1

/-- It holds exactly at the points that are multiples of 8. -/
theorem firstTile_iff : ∀ t : Fin cfg0.N, firstTile (grid0.coords t) ↔ t.val % 8 = 0 :=
  (by decide +kernel : ∀ t : Fin grid0.N, firstTile (grid0.coords t) ↔ t.val % 8 = 0)

/-- The staging memrefs the body is called with at point `t`, and the scratch holding the padded sequence. -/
abbrev inAt (t : Fin cfg0.N) : Memref sig .tc .vmem S1x4096x128 .f32 := win0_0.stage (cfg0.slots t 0)
abbrev inAt_whole (t : Fin cfg0.N) : (inAt t).IsWhole := hstage0_0 ((cfg0.slots t 0).cast nbuf0_0)
abbrev outAt (t : Fin cfg0.N) : Memref sig .tc .vmem S1x512x1152 .f32 := win0_1.stage (cfg0.slots t 1)
abbrev outAt_whole (t : Fin cfg0.N) : (outAt t).IsWhole := hstage0_1 ((cfg0.slots t 1).cast nbuf0_1)
abbrev padded : Memref sig .tc .vmem S4112x128 .f32 := Memref.whole cc0_scratch0

/-- Between batch rows nothing is known of the scratch: the region's plain invariant is the scratch at some contents and
    the generator register at some state. -/
theorem plain_eq (c : Dev nD) :
    (Pipeline.ΦA spec0 c : sProp 𝕄)
      = iprop(iprop((∃ d, owns (c : Thread nD τ) padded fullShare d)) ∗ (∃ r, prngReg c r)) := by
  unfold Pipeline.ΦA; rw [scopedRest0_eq]; simp only [padded, owns_whole]; try rfl

end Cert.Kernel.Body

end
-- ==== Proof.RunFirstKernel.lean ====
/-
  The body at the first tile of a batch row (the branch taken).

  Whatever the scratch held, the body overwrites all of it: eight rows of zeros, the 4096 rows of the batch row's
  sequence, eight rows of zeros — three stores that tile the scratch (`LS`). It then loads nine windows of 512 rows of
  what it has just written, lays them side by side, and stores the result over the whole output block (`L1`). The
  input block is left as it was. Both piece lists are found by running the body.
-/
import proofs.«109366_j72507637891620_1_alg».proof.Proof.SharedKernel

set_option maxRecDepth 16384

noncomputable section

namespace Cert.Kernel.Body

open Cert.Kernel Cert.Kernel.Gen Cert.Kernel.Offsets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block and in the scratch when the branch is taken, with the proof that
    the body runs: the input block at `x0` is handed back unchanged; the output block and the scratch, at anything
    before, with their pieces written. -/
noncomputable def runFirst (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : firstTile i)
    (x0 : Vec F S1x4096x128 .f32) :
    Σ' (L1 : List (View.Piece (Elt F) S1x512x1152 .f32)), { LS : List (View.Piece (Elt F) S4112x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__tca_kernel i arg2 harg2 arg3 harg3 arg4 harg4) K } := by
  refine ⟨?_, ?_, fun E K => ?run⟩
  case run =>
    simp only [cc0__tca_kernel_eq_skeleton]; unfold cc0__tca_kernel_skel
    simp only [k0_part1_eq_skeleton]
    unfold owns
    iintro ⟨⟨%f0, %hf0, H0⟩, ⟨%d1, %f1, -, H1⟩, ⟨%ds0, %fs0, -, HS0⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact HS0

end Cert.Kernel.Body

end
-- ==== Proof.RunLaterKernel.lean ====
/-
  The body at a later tile of a batch row (the branch skipped).

  The scratch already holds the padded sequence `P` of the batch row. The body loads nine windows of 512 rows of it, lays
  them side by side, and stores the result over the whole output block; the scratch and the input block are left as
  they were. What is stored is found by running the body; it is the one piece `L1`.
-/
import proofs.«109366_j72507637891620_1_alg».proof.Proof.SharedKernel

set_option maxRecDepth 16384

noncomputable section

namespace Cert.Kernel.Body

open Cert.Kernel Cert.Kernel.Gen Cert.Kernel.Offsets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block when the branch is skipped, with the proof that the body runs: the
    input block at `x0` and the scratch at `P` are handed back unchanged, the output block (at anything before) with
    the pieces written. -/
noncomputable def runLater (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : ¬firstTile i)
    (x0 : Vec F S1x4096x128 .f32) (P : Vec F S4112x128 .f32) :
    { L1 : List (View.Piece (Elt F) S1x512x1152 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare P
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare P) -∗ K ⟨⟩))
          ⊢ wp frame (wpE (defs₀ (F := F)) Variants.none c none) E (cc0__tca_kernel i arg2 harg2 arg3 harg3 arg4 harg4) K } := by
  refine ⟨?_, fun E K => ?run⟩
  case run =>
    simp only [cc0__tca_kernel_eq_skeleton]; unfold cc0__tca_kernel_skel
    simp only [k0_part1_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0)
    sl_step
    iapply Hk
    isplitl [H0]
    · iexists _; isplitr; · ipureintro; exact harg2.read_unread _
      iexact H0
    isplitl [H1]
    · iexists _; iexact H1
    iexists _; isplitr; · ipureintro; exact harg4.read_unread _
    iexact HS0

end Cert.Kernel.Body

end
-- ==== Proof.Spec.lean ====
/-
  The sliding-window context expansion as ONE function of the argument array, and the two intermediate arrays the
  kernel builds on the way.

  For a batch row `b`, an output row `i` and a column `c = 128·k + d` (slot `k < 9`, feature `d < 128`), the result is the
  input's entry `(b, i + o k, d)` when row `i + o k` exists and the fill value otherwise, the nine row shifts being
  `o = (-3, -2, -1, 0, 0, 0, 1, 2, 3)`. Rows are counted on the sequence padded by eight fill rows on each side, so that
  the shifted row `i + 8 + o k` is a natural number: slot `k` of output row `i` reads padded row `i + sh k`, with
  `sh = (5, 6, 7, 8, 8, 8, 9, 10, 11)`.

  * `padOf z xb` — one batch row's sequence `xb` (4096 rows) between two runs of eight fill rows `z` (4112 rows).
  * `tileOf P l` — tile `l` (512 output rows) read off a padded sequence `P`: row `r`, column `128·k + d` is
    `P (512·l + r + sh k, d)`.
  * `G z x` — the whole result. `tile_eq`: tile `l` of batch row `b` of `G z x` is `tileOf (padOf z (row b of x)) l`.

  Nothing here is arithmetic on values: entries are moved or replaced by the fill value, so the statements hold over
  any type of values.
-/
import Idealize.ShloMosaic.Lib.ValueIdx

namespace Cert.Spec

open Idealize.ShloMosaic Idealize.ShloMosaic.ValueIdx

variable {α : Type}

/-- The padded row slot `k` adds to an output row: eight fill rows, then the slot's shift. -/
def sh (k : Nat) : Nat :=
  match k with
  | 0 => 5 | 1 => 6 | 2 => 7 | 3 => 8 | 4 => 8 | 5 => 8 | 6 => 9 | 7 => 10 | _ => 11

theorem sh_le (k : Nat) : sh k ≤ 11 := by unfold sh; split <;> omega
theorem sh_ge (k : Nat) : 5 ≤ sh k := by unfold sh; split <;> omega

theorem lt3_0 {n0 n1 n2 : Nat} (j : (⟨3, ![n0, n1, n2]⟩ : Shape).Idx) : (j 0).val < n0 := (j 0).isLt
theorem lt3_1 {n0 n1 n2 : Nat} (j : (⟨3, ![n0, n1, n2]⟩ : Shape).Idx) : (j 1).val < n1 := (j 1).isLt
theorem lt3_2 {n0 n1 n2 : Nat} (j : (⟨3, ![n0, n1, n2]⟩ : Shape).Idx) : (j 2).val < n2 := (j 2).isLt

/-- One batch row's sequence between two runs of eight fill rows. -/
def padOf (z : α) (xb : (⟨3, ![1, 4096, 128]⟩ : Shape).Idx → α) : (⟨2, ![4112, 128]⟩ : Shape).Idx → α :=
  fun p =>
    if h : 8 ≤ (p 0).val ∧ (p 0).val < 4104 then
      xb (ix3 (0 : Fin 1) (⟨(p 0).val - 8, by omega⟩ : Fin 4096) (⟨(p 1).val, idx2_lt1 p⟩ : Fin 128))
    else z

/-- Tile `l` of the result of one batch row, read off its padded sequence. -/
def tileOf (P : (⟨2, ![4112, 128]⟩ : Shape).Idx → α) (l : Nat) (hl : l < 8) : (⟨3, ![1, 512, 1152]⟩ : Shape).Idx → α :=
  fun y =>
    P (ix2 (⟨512 * l + (y 1).val + sh ((y 2).val / 128), by
          have h1 := lt3_1 y; have h2 := sh_le ((y 2).val / 128); omega⟩ : Fin 4112)
        (⟨(y 2).val % 128, Nat.mod_lt _ (by decide)⟩ : Fin 128))

/-- Batch row `b` of the argument array. -/
def blockOf (x : (⟨3, ![16, 4096, 128]⟩ : Shape).Idx → α) (b : Nat) (hb : b < 16) : (⟨3, ![1, 4096, 128]⟩ : Shape).Idx → α :=
  fun y => x (ix3 (⟨b, hb⟩ : Fin 16) (⟨(y 1).val, lt3_1 y⟩ : Fin 4096) (⟨(y 2).val, lt3_2 y⟩ : Fin 128))

/-- The whole result, index by index. -/
def G (z : α) (x : (⟨3, ![16, 4096, 128]⟩ : Shape).Idx → α) : (⟨3, ![16, 4096, 1152]⟩ : Shape).Idx → α :=
  fun j =>
    if h : 8 ≤ (j 1).val + sh ((j 2).val / 128) ∧ (j 1).val + sh ((j 2).val / 128) < 4104 then
      x (ix3 (⟨(j 0).val, lt3_0 j⟩ : Fin 16) (⟨(j 1).val + sh ((j 2).val / 128) - 8, by omega⟩ : Fin 4096)
        (⟨(j 2).val % 128, Nat.mod_lt _ (by decide)⟩ : Fin 128))
    else z

/-- Tile `l` of batch row `b` of the result is that tile of the batch row's padded sequence: at output row `512·l + r`
    both sides look at padded row `512·l + r + sh k`, inside the sequence or in the fill alike. -/
theorem tile_eq (z : α) (x : (⟨3, ![16, 4096, 128]⟩ : Shape).Idx → α) (b : Nat) (hb : b < 16) (l : Nat) (hl : l < 8)
    (y : (⟨3, ![1, 512, 1152]⟩ : Shape).Idx) (j : (⟨3, ![16, 4096, 1152]⟩ : Shape).Idx)
    (h0 : (j 0).val = b) (h1 : (j 1).val = 512 * l + (y 1).val) (h2 : (j 2).val = (y 2).val) :
    G z x j = tileOf (padOf z (blockOf x b hb)) l hl y := by
  unfold G tileOf padOf blockOf
  by_cases h : 8 ≤ (j 1).val + sh ((j 2).val / 128) ∧ (j 1).val + sh ((j 2).val / 128) < 4104
  · rw [dif_pos h, dif_pos (by
      show 8 ≤ 512 * l + (y 1).val + sh ((y 2).val / 128) ∧ 512 * l + (y 1).val + sh ((y 2).val / 128) < 4104
      rw [← h1, ← h2]; exact h)]
    congr 1
    funext a
    match a with
    | ⟨0, _⟩ => exact Fin.ext h0
    | ⟨1, _⟩ => exact Fin.ext (by show (j 1).val + sh ((j 2).val / 128) - 8 = 512 * l + (y 1).val + sh ((y 2).val / 128) - 8; rw [h1, h2])
    | ⟨2, _⟩ => exact Fin.ext (by show (j 2).val % 128 = (y 2).val % 128; rw [h2])
  · rw [dif_neg h, dif_neg (by
      show ¬(8 ≤ 512 * l + (y 1).val + sh ((y 2).val / 128) ∧ 512 * l + (y 1).val + sh ((y 2).val / 128) < 4104)
      rw [← h1, ← h2]; exact h)]

end Cert.Spec
-- ==== Proof.PiecesKernel.lean ====
/-
  What the body's stored values are, as functions.

  * The three stores of the first tile — eight rows of the zero word, the batch row's 4096 rows, eight rows of the zero
    word — tile the scratch, and each agrees with the padded sequence `Spec.padOf` on its rows; so whatever was there
    before, the scratch reads as the padded sequence (`init_canon`).
  * Window `k` of a padded sequence `P` at tile `l` is its 512 rows from row `512·l + sh k` (`wnd_apply`); the nine
    windows side by side, column `c` taken from window `c / 128` at column `c % 128`, are tile `l` of the result read
    off `P` (`tile_payload`).
-/
import proofs.«109366_j72507637891620_1_alg».proof.Proof.Gen.Kernel.Skeleton
import proofs.«109366_j72507637891620_1_alg».proof.Proof.OffsetsKernel
import proofs.«109366_j72507637891620_1_alg».proof.Proof.Spec
import Idealize.ShloMosaic.Lib.Pipeline.Value
import Idealize.ShloMosaic.Lib.Ring
import Idealize.ShloMosaic.Lib.Tactic

set_option maxRecDepth 16384

noncomputable section

namespace Cert.Kernel.Pieces

open Idealize.ShloMosaic Idealize.ShloMosaic.ValueIdx Idealize.ShloMosaic.Tactic
open Cert.Kernel Cert.Kernel.Gen Cert.Kernel.Offsets

variable {F : FTy → Type} [FloatOps F]

/-- The fill value: the zero word read as a float. -/
abbrev zf : F .f32 := Scalar.ofBits .f32 0x00000000#32

/-! ## Nine equal pieces side by side -/

/-- Nine arrays of 512 × 128 joined along the columns, read at row `r`, column `c`: array `c / 128` at row `r`, column
    `c % 128`. -/
theorem concat9_apply {α : Type} (v : Fin 9 → ((⟨2, ![512, 128]⟩ : Shape).Idx → α))
    (h : Shape.Concatenates (([⟨⟨2, ![512, 128]⟩, v 0⟩, ⟨⟨2, ![512, 128]⟩, v 1⟩, ⟨⟨2, ![512, 128]⟩, v 2⟩, ⟨⟨2, ![512, 128]⟩, v 3⟩, ⟨⟨2, ![512, 128]⟩, v 4⟩,
        ⟨⟨2, ![512, 128]⟩, v 5⟩, ⟨⟨2, ![512, 128]⟩, v 6⟩, ⟨⟨2, ![512, 128]⟩, v 7⟩, ⟨⟨2, ![512, 128]⟩, v 8⟩] : List ((s : Shape) × (s.Idx → α))).map (·.1)) ⟨2, ![512, 1152]⟩ 1)
    (q : (⟨2, ![512, 1152]⟩ : Shape).Idx) :
    concatenate ⟨2, ![512, 1152]⟩ 1 [⟨⟨2, ![512, 128]⟩, v 0⟩, ⟨⟨2, ![512, 128]⟩, v 1⟩, ⟨⟨2, ![512, 128]⟩, v 2⟩, ⟨⟨2, ![512, 128]⟩, v 3⟩, ⟨⟨2, ![512, 128]⟩, v 4⟩,
        ⟨⟨2, ![512, 128]⟩, v 5⟩, ⟨⟨2, ![512, 128]⟩, v 6⟩, ⟨⟨2, ![512, 128]⟩, v 7⟩, ⟨⟨2, ![512, 128]⟩, v 8⟩] h q
      = v ⟨(q 1).val / 128, by have := idx2_lt1 q; omega⟩
          (ix2 (⟨(q 0).val, idx2_lt0 q⟩ : Fin 512) (⟨(q 1).val % 128, Nat.mod_lt _ (by decide)⟩ : Fin 128)) :=
  concatenate_ofFn_apply (t := ⟨2, ![512, 1152]⟩) (s₁ := ⟨2, ![512, 128]⟩) (1 : Fin 2) v h rfl 128 rfl q
    ⟨(q 1).val / 128, by have := idx2_lt1 q; omega⟩ rfl
    (ix2 (⟨(q 0).val, idx2_lt0 q⟩ : Fin 512) (⟨(q 1).val % 128, Nat.mod_lt _ (by decide)⟩ : Fin 128)) rfl
    (fun b hb => match b, hb with
      | ⟨0, _⟩, _ => rfl
      | ⟨1, _⟩, hb => absurd rfl hb)

/-! ## The windows of a padded sequence -/

/-- The shift word of slot `k`. -/
def cw (k : Fin 9) : BitVec 32 :=
  ![4294967293#32, 4294967294#32, 4294967295#32, 0#32, 0#32, 0#32, 1#32, 2#32, 3#32] k

/-- Slot `k`'s window starts at padded row `512·l + sh k`, column 0. -/
theorem off_slot (i : grid0.Coords) (k : Fin 9) : k0_off1 i (cw k) = ![512 * (i 1).val + Spec.sh k.val, 0] := by
  match k with
  | ⟨0, _⟩ => exact off_m3 i
  | ⟨1, _⟩ => exact off_m2 i
  | ⟨2, _⟩ => exact off_m1 i
  | ⟨3, _⟩ => exact off_0 i
  | ⟨4, _⟩ => exact off_0 i
  | ⟨5, _⟩ => exact off_0 i
  | ⟨6, _⟩ => exact off_1 i
  | ⟨7, _⟩ => exact off_2 i
  | ⟨8, _⟩ => exact off_3 i

theorem inb_slot (i : grid0.Coords) (k : Fin 9) : ∀ a, (k0_off1 i (cw k)) a + S512x128.size a ≤ S4112x128.size a := by
  rw [off_slot]
  have hl : (i 1).val < 8 := (i 1).isLt
  have hs := Spec.sh_le k.val
  intro a
  match a with
  | ⟨0, _⟩ => show 512 * (i 1).val + Spec.sh k.val + 512 ≤ 4112; omega
  | ⟨1, _⟩ => show 0 + 128 ≤ 128; omega

/-- Window `k` of the padded sequence `P` at the point's tile: what the body's `k`-th load reads. -/
abbrev wnd (P : Vec F S4112x128 .f32) (i : grid0.Coords) (k : Fin 9) : Vec F S512x128 .f32 :=
  View.ld P (Rect.unit (s := S4112x128) (k0_off1 i (cw k)) S512x128.size (inb_slot i k))

theorem wnd_apply (P : Vec F S4112x128 .f32) (i : grid0.Coords) (k : Fin 9) (r : Fin 512) (d : Fin 128) :
    wnd P i k (ix2 r d)
      = P (ix2 (⟨512 * (i 1).val + r.val + Spec.sh k.val, by
            have hl : (i 1).val < 8 := (i 1).isLt; have hs := Spec.sh_le k.val; omega⟩ : Fin 4112) d) := by
  show P ((Rect.unit (s := S4112x128) (k0_off1 i (cw k)) S512x128.size (inb_slot i k)).idx (ix2 r d)) = _
  congr 1
  funext a
  have e := off_slot i k
  match a with
  | ⟨0, _⟩ =>
    apply Fin.ext
    show (k0_off1 i (cw k)) 0 + 1 * r.val = 512 * (i 1).val + r.val + Spec.sh k.val
    rw [congrFun e 0]; show 512 * (i 1).val + Spec.sh k.val + 1 * r.val = _; omega
  | ⟨1, _⟩ =>
    apply Fin.ext
    show (k0_off1 i (cw k)) 1 + 1 * d.val = d.val
    rw [congrFun e 1]; show 0 + 1 * d.val = d.val; omega

/-- The nine windows laid side by side, as a 1 × 512 × 1152 block, are the tile read off the padded sequence. -/
theorem tile_payload (P : Vec F S4112x128 .f32) (i : grid0.Coords) :
    k0_pay1 (wnd P i 0) (wnd P i 1) (wnd P i 2) (wnd P i 3) (wnd P i 4) (wnd P i 5) (wnd P i 6) (wnd P i 7) (wnd P i 8)
      = Spec.tileOf P (i 1).val (i 1).isLt := by
  funext y
  unfold k0_pay1
  refine (shapeCast_addUnit_apply ![512, 1152] _ _ y).trans ?_
  refine (concat9_apply (wnd P i) _ (fun a => y a.succ)).trans ?_
  refine (wnd_apply P i _ _ _).trans ?_
  unfold Spec.tileOf
  congr 1

/-! ## The padded sequence from its three stores -/

/-- The three stores of the first tile leave the padded sequence of the input block `x0`. -/
theorem init_canon (x0 : Vec F S1x4096x128 .f32) :
    View.canon (Val := Elt F) ([⟨Rect.unit (s := S4112x128) ![4104, 0] S8x128.size inb_S4112x128_S8x128_4104_0, k0_pay4 (F := F)⟩,
        ⟨Rect.unit (s := S4112x128) ![8, 0] S4096x128.size inb_S4112x128_S4096x128_8_0, k0_pay3 x0⟩,
        ⟨Rect.unit (s := S4112x128) ![0, 0] S8x128.size inb_S4112x128_S8x128_0_0, k0_pay2 (F := F)⟩] : List (View.Piece (Elt F) S4112x128 .f32))
      = Spec.padOf (zf (F := F)) x0 := by
  funext p
  refine View.canon_apply_of_pieces (Spec.padOf (zf (F := F)) x0) _ ?_ p
    (View.cover_of_tiledBy _ ![8, 128] (by sl_kernel_rfl) p)
  intro q hq x
  simp only [List.mem_cons, List.not_mem_nil, or_false] at hq
  rcases hq with rfl | rfl | rfl
  · -- the trailing fill rows
    have hx : (x 0).val < 8 := (x 0).isLt
    show k0_pay4 (F := F) x = _
    unfold k0_pay4 Spec.padOf
    rw [shapeCast_self, dif_neg (by
      show ¬(8 ≤ 4104 + 1 * (x 0).val ∧ 4104 + 1 * (x 0).val < 4104); omega)]
    rfl
  · -- the sequence's rows
    have hx : (x 0).val < 4096 := (x 0).isLt
    show k0_pay3 x0 x = _
    unfold k0_pay3 Spec.padOf
    rw [shapeCast_self, dif_pos (by
      show 8 ≤ 8 + 1 * (x 0).val ∧ 8 + 1 * (x 0).val < 4104; omega)]
    refine (shapeCast_dropUnit_apply ![4096, 128] x0 _ x).trans ?_
    congr 1
    funext a
    match a with
    | ⟨0, _⟩ => rfl
    | ⟨1, _⟩ => exact Fin.ext (by show (x 0).val = 8 + 1 * (x 0).val - 8; omega)
    | ⟨2, _⟩ => exact Fin.ext (by show (x 1).val = 0 + 1 * (x 1).val; omega)
  · -- the leading fill rows
    have hx : (x 0).val < 8 := (x 0).isLt
    show k0_pay2 (F := F) x = _
    unfold k0_pay2 Spec.padOf
    rw [shapeCast_self, dif_neg (by
      show ¬(8 ≤ 0 + 1 * (x 0).val ∧ 0 + 1 * (x 0).val < 4104); omega)]
    rfl

end Cert.Kernel.Pieces

end
-- ==== Proof.BodyKernel.lean ====
/-
  The kernel's launch: the proof data, the body at every grid point, the run.

  The scratch carries the padded sequence of the current batch row from the row's first tile to its last. So the
  invariant before point `n + 1` is "the scratch holds `padOf 0 (row of point n)`", where the row of point `n` is the
  input block as the input window holds it at the row's first point `8·(n / 8)`; before point 0 nothing is known of
  the scratch, and after the last point it is forgotten again. With that:

  * at a first tile (`t ≡ 0 mod 8`) the body needs nothing of the scratch, overwrites it with the padded sequence of
    the block just fetched, and stores tile 0 read off it;
  * at a later tile the scratch is the same batch row's padded sequence (`(t - 1) / 8 = t / 8`), is left as it is, and
    the body stores tile `t % 8` read off it.

  Either way the output block after point `t` is `tileOf (padded sequence of t's batch row) (t % 8)`: the closed form
  the proof data states (`after 1 t`).
-/
import proofs.«109366_j72507637891620_1_alg».proof.Proof.RunFirstKernel
import proofs.«109366_j72507637891620_1_alg».proof.Proof.RunLaterKernel
import proofs.«109366_j72507637891620_1_alg».proof.Proof.PiecesKernel

set_option maxRecDepth 16384

noncomputable section

namespace Cert.Kernel.Body

open Cert.Kernel Cert.Kernel.Gen Cert.Kernel.Offsets Cert.Kernel.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero3 : (![0, 0, 0] : Fin 3 → Nat) = fun _ => 0 := funext fun a => by fin_cases a <;> rfl

/-- The tile coordinate of point `t`. -/
theorem tile_coord : ∀ t : Fin cfg0.N, ((grid0.coords t) 1).val = t.val % 8 :=
  (by decide +kernel : ∀ t : Fin grid0.N, ((grid0.coords t) 1).val = t.val % 8)

theorem tileOf_congr {α : Type} (P : (⟨2, ![4112, 128]⟩ : Shape).Idx → α) {l l' : Nat} (h : l = l') (hl : l < 8) (hl' : l' < 8) :
    Spec.tileOf P l hl = Spec.tileOf P l' hl' := by subst h; rfl

/-! ## What the two runs found, as functions -/

theorem later_cover (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : ¬firstTile i)
    (x0 : Vec F S1x4096x128 .f32) (P : Vec F S4112x128 .f32) (y : S1x512x1152.Idx) :
    ∃ pc ∈ (runLater c i arg2 harg2 arg3 harg3 arg4 harg4 hc0 x0 P).1, y ∈ pc.1.set :=
  View.cover_of_tiledL _ S1x512x1152.size (by sl_kernel_rfl) y

/-- At a later tile the output block ends as the tile read off the scratch's sequence `P`. -/
theorem later_out {sig' : RefSig} {κ' : Kind} {sp' : Space} (v : View sig' κ' sp' S1x512x1152 .f32) (f : v.ty.Contents (Elt F))
    (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : ¬firstTile i)
    (x0 : Vec F S1x4096x128 .f32) (P : Vec F S4112x128 .f32) :
    v.read (Elt F) (v.writes (Elt F) f (runLater c i arg2 harg2 arg3 harg3 arg4 harg4 hc0 x0 P).1)
      = Spec.tileOf P (i 1).val (i 1).isLt := by
  rw [View.read_writes_eq_canon _ _ _ (later_cover c i arg2 harg2 arg3 harg3 arg4 harg4 hc0 x0 P)]
  unfold runLater; dsimp only
  sl_unfold_run_names
  rw [View.canon_unit_zero zero3]
  simp only [View.readAt_eq_ld, harg4.read_unread]
  exact tile_payload P i

theorem first_cover_out (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : firstTile i)
    (x0 : Vec F S1x4096x128 .f32) (y : S1x512x1152.Idx) :
    ∃ pc ∈ (runFirst c i arg2 harg2 arg3 harg3 arg4 harg4 hc0 x0).1, y ∈ pc.1.set :=
  View.cover_of_tiledL _ S1x512x1152.size (by sl_kernel_rfl) y

theorem first_cover_scratch (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : firstTile i)
    (x0 : Vec F S1x4096x128 .f32) (y : S4112x128.Idx) :
    ∃ pc ∈ (runFirst c i arg2 harg2 arg3 harg3 arg4 harg4 hc0 x0).2.1, y ∈ pc.1.set :=
  View.cover_of_tiledBy _ ![8, 128] (by sl_kernel_rfl) y

/-- At a first tile the scratch ends as the padded sequence of the input block, whatever it held. -/
theorem first_scratch {sig' : RefSig} {κ' : Kind} {sp' : Space} (v : View sig' κ' sp' S4112x128 .f32) (f : v.ty.Contents (Elt F))
    (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : firstTile i)
    (x0 : Vec F S1x4096x128 .f32) :
    v.read (Elt F) (v.writes (Elt F) f (runFirst c i arg2 harg2 arg3 harg3 arg4 harg4 hc0 x0).2.1)
      = Spec.padOf (zf (F := F)) x0 := by
  rw [View.read_writes_eq_canon _ _ _ (first_cover_scratch c i arg2 harg2 arg3 harg3 arg4 harg4 hc0 x0)]
  unfold runFirst; dsimp only
  sl_unfold_run_names
  simp only [View.readAt_eq_ld, harg2.read_unread, View.ld_unit_zero (S := S1x4096x128) zero3]
  exact init_canon x0

/-- and the output block as the tile read off that padded sequence. -/
theorem first_out {sig' : RefSig} {κ' : Kind} {sp' : Space} (v : View sig' κ' sp' S1x512x1152 .f32) (f : v.ty.Contents (Elt F))
    (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : firstTile i)
    (x0 : Vec F S1x4096x128 .f32) :
    v.read (Elt F) (v.writes (Elt F) f (runFirst c i arg2 harg2 arg3 harg3 arg4 harg4 hc0 x0).1)
      = Spec.tileOf (Spec.padOf (zf (F := F)) x0) (i 1).val (i 1).isLt := by
  rw [View.read_writes_eq_canon _ _ _ (first_cover_out c i arg2 harg2 arg3 harg3 arg4 harg4 hc0 x0)]
  unfold runFirst; dsimp only
  sl_unfold_run_names
  rw [View.canon_unit_zero zero3]
  simp only [View.readAt_eq_ld, View.read_writes_junk_eq_canon, harg2.read_unread, View.ld_unit_zero (S := S1x4096x128) zero3]
  refine Eq.trans ?_ (tile_payload (F := F) (Spec.padOf (zf (F := F)) x0) i)
  rw [← init_canon (F := F) x0]
  rfl

/-! ## The batch row's padded sequence, point by point -/

/-- The batch row of point `n`, as the input window holds it at the row's first point. -/
def rowAt (c : Dev nD) (n : ℕ) (hn : n < cfg0.N) : Vec F S1x4096x128 .f32 :=
  iblk m c 0 ⟨8 * (n / 8), by have hN : cfg0.N = 128 := N_0; omega⟩

theorem rowAt_congr (c : Dev nD) (n n' : ℕ) (hn : n < cfg0.N) (hn' : n' < cfg0.N) (h : n / 8 = n' / 8) :
    rowAt m c n hn = rowAt m c n' hn' := by
  have e : ∀ t t' : Fin cfg0.N, t' = t → (iblk m c 0 t' : Vec F S1x4096x128 .f32) = iblk m c 0 t := fun t t' e => by subst e; rfl
  exact e _ _ (Fin.ext (by show 8 * (n / 8) = 8 * (n' / 8); omega))

theorem rowAt_first (c : Dev nD) (t : Fin cfg0.N) (h0 : t.val % 8 = 0) : rowAt m c t.val t.isLt = iblk m c 0 t := by
  have e : ∀ t' : Fin cfg0.N, t' = t → (iblk m c 0 t' : Vec F S1x4096x128 .f32) = iblk m c 0 t := fun t' e => by subst e; rfl
  exact e _ (Fin.ext (by show 8 * (t.val / 8) = t.val; omega))

/-- What the scratch holds after point `n`: the padded sequence of `n`'s batch row. -/
def scrAt (c : Dev nD) (n : ℕ) (hn : n < cfg0.N) : Vec F S4112x128 .f32 := Spec.padOf (zf (F := F)) (rowAt m c n hn)

/-- The region invariant before point `n`: before the first, nothing known of the scratch; afterwards the scratch at the
    padded sequence the point before left, and the generator register at some state. -/
def held (c : Dev nD) : (n : ℕ) → n ≤ cfg0.N → sProp 𝕄
  | 0, _ => Pipeline.ΦA spec0 c
  | n + 1, hn => iprop(iprop(owns (c : Thread nD τ) padded fullShare (scrAt m c n hn)) ∗ (∃ r, prngReg c r))

theorem held_zero (c : Dev nD) (n : ℕ) (h : n ≤ cfg0.N) (hz : n = 0) : held m c n h = Pipeline.ΦA spec0 c := by
  subst hz; rfl

theorem held_succ (c : Dev nD) (n : ℕ) (hn : n < cfg0.N) :
    held m c (n + 1) hn = iprop(iprop(owns (c : Thread nD τ) padded fullShare (scrAt m c n hn)) ∗ (∃ r, prngReg c r)) := rfl

theorem held_pos (c : Dev nD) (n : ℕ) (h : n ≤ cfg0.N) (hz : n ≠ 0) :
    held m c n h = iprop(iprop(owns (c : Thread nD τ) padded fullShare (scrAt m c (n - 1) (by omega))) ∗ (∃ r, prngReg c r)) := by
  cases n with
  | zero => exact absurd rfl hz
  | succ n => rfl

/-! ## The proof data -/

/-- On core `c`: the arrays as the region finds them; after the body at point `t` the input's buffer at its block and
    the output's at tile `t % 8` of the batch row's padded sequence; the invariant `held`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Spec.tileOf (scrAt m c t.val t.isLt) (t.val % 8) (Nat.mod_lt _ (by decide))
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; simp only [Fin.coe_castSucc]

theorem after_in (c : Dev nD) (t : Fin cfg0.N) : (dats m 0 c).after 0 t = iblk m c 0 t := by dsimp only [dats]
theorem after_out (c : Dev nD) (t : Fin cfg0.N) :
    (dats m 0 c).after 1 t = Spec.tileOf (scrAt m c t.val t.isLt) (t.val % 8) (Nat.mod_lt _ (by decide)) := by dsimp only [dats]

/-- The input's current staging buffer holds its block at every point, fetched there or not. -/
theorem before_in (c : Dev nD) (t : Fin cfg0.N) (d) : (dats m 0 c).before 0 t d = iblk m c 0 t :=
  before0_0_of m (dats m 0 c) (A_eq m c 0) (after_in m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (inAt t) fullShare ((dats m 0 c).before 0 t d))
    ∗ (∃ d, owns (c : Thread nD τ) (outAt t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (inAt t) fullShare ((dats m 0 c).after 0 t)
    ∗ owns (c : Thread nD τ) (outAt t) fullShare ((dats m 0 c).after 1 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = held m c (t.val + 1) t.isLt from rfl, held_succ]
  rw [after_in, after_out]
  have hN : t.val < 128 := lt_of_lt_of_eq t.isLt (show cfg0.N = 128 from N_0)
  by_cases h0 : t.val % 8 = 0
  · -- a first tile: the scratch is rebuilt from the block just fetched
    have hc : firstTile (grid0.coords t) := (firstTile_iff t).mpr h0
    rw [show scrAt m c t.val t.isLt = Spec.padOf (zf (F := F)) (iblk m c 0 t) from
      congrArg (Spec.padOf (zf (F := F))) (rowAt_first m c t h0)]
    by_cases hz : t.val = 0
    · rw [held_castSucc m c t, held_zero m c _ _ hz, plain_eq]
      iintro ⟨⟨HS0, Hg⟩, Ho, ⟨%d0, H0⟩, ⟨%d1, H1⟩⟩
      iapply ((runFirst c (grid0.coords t) _ _ _ _ _ _ hc (iblk m c 0 t)).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact first_scratch _ _ c _ _ _ _ _ _ _ hc _
        iexact Hg
      isplitl [Ho]; · iexact Ho
      isplitl [H0]; · iexact H0
      unfold owns; iexists _; isplitr
      swap; · iexact H1
      ipureintro; exact (first_out _ _ c _ _ _ _ _ _ _ hc _).trans (tileOf_congr _ (tile_coord t) _ _)
    · rw [held_castSucc m c t, held_pos m c _ _ hz]
      iintro ⟨⟨HS0, Hg⟩, Ho, ⟨%d0, H0⟩, ⟨%d1, H1⟩⟩
      iapply ((runFirst c (grid0.coords t) _ _ _ _ _ _ hc (iblk m c 0 t)).2.2 Set.univ _)
      isplitl [H0]; · iexact H0
      isplitl [H1]; · iexists _; iexact H1
      isplitl [HS0]; · iexists _; iexact HS0
      iintro ⟨H0, ⟨%e1, H1⟩, ⟨%es0, HS0⟩⟩
      isplitl [HS0 Hg]
      · isplitl [HS0]
        · unfold owns; iexists _; isplitr
          swap; · iexact HS0
          ipureintro; exact first_scratch _ _ c _ _ _ _ _ _ _ hc _
        iexact Hg
      isplitl [Ho]; · iexact Ho
      isplitl [H0]; · iexact H0
      unfold owns; iexists _; isplitr
      swap; · iexact H1
      ipureintro; exact (first_out _ _ c _ _ _ _ _ _ _ hc _).trans (tileOf_congr _ (tile_coord t) _ _)
  · -- a later tile: the scratch is the same batch row's, and stays
    have hc : ¬firstTile (grid0.coords t) := fun h => h0 ((firstTile_iff t).mp h)
    have hz : t.val ≠ 0 := by omega
    rw [held_castSucc m c t, held_pos m c _ _ hz]
    rw [show scrAt m c t.val t.isLt = scrAt m c (t.val - 1) (by omega) from
      congrArg (Spec.padOf (zf (F := F))) (rowAt_congr m c _ _ _ _ (by omega))]
    iintro ⟨⟨HS0, Hg⟩, Ho, ⟨%d0, H0⟩, ⟨%d1, H1⟩⟩
    iapply ((runLater c (grid0.coords t) _ _ _ _ _ _ hc (iblk m c 0 t) _).2 Set.univ _)
    isplitl [H0]; · iexact H0
    isplitl [H1]; · iexists _; iexact H1
    isplitl [HS0]; · iexact HS0
    iintro ⟨H0, ⟨%e1, H1⟩, HS0⟩
    isplitl [HS0 Hg]
    · isplitl [HS0]; · iexact HS0
      iexact Hg
    isplitl [Ho]; · iexact Ho
    isplitl [H0]; · iexact H0
    unfold owns; iexists _; isplitr
    swap; · iexact H1
    ipureintro; exact (later_out _ _ c _ _ _ _ _ _ _ hc _ _).trans (tileOf_congr _ (tile_coord t) _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

/-- After any point the invariant gives the plain one back: what the scratch holds is forgotten. -/
theorem held_out (c : Dev nD) (t : Fin (cfg0.N + 1)) (ht : t.val ≠ 0) : (dats m 0 c).Φ t ⊢ Pipeline.ΦA spec0 c := by
  rw [show (dats m 0 c).Φ t = held m c t.val (Nat.le_of_lt_succ t.isLt) from rfl, held_pos m c _ _ ht, plain_eq]
  iintro ⟨HS0, Hg⟩
  isplitl [HS0]
  · iexists _; iexact HS0
  iexact Hg

theorem hout (c : Dev nD) : (dats m 0 c).Φ (Fin.last cfg0.N) ⊢ Pipeline.ΦA spec0 c :=
  held_out m c _ (by rw [Fin.val_last]; have : cfg0.N = 128 := N_0; omega)

/-! ## The run and the frame -/

set_option backward.isDefEq.respectTransparency.types false in
/-- Every weakly fair execution of @main terminates, and every final state has every array of the pipeline at what the
    library computes from the proof data, every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates, nothing faults, and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.OffsetsKernelIdeal.lean ====
/-
  The rows the body's nine window loads start at, in closed form.

  At grid point `(b, l)` the body reads, for each of the nine slots, the 512 rows of the padded sequence that start at row
  `512·l + 8 + o`, `o` the slot's shift (`-3 … 3`, as a 32-bit word). The program computes that row by word arithmetic on
  `l`; since `l < 8` nothing wraps, and the start row is the natural number `512·l + 5 … 512·l + 11`.
-/
import proofs.«109366_j72507637891620_1_alg».proof.KernelIdeal
import Idealize.ShloMosaic.Lib.Exec.Geometry

namespace Cert.KernelIdeal.Offsets

open Idealize.ShloMosaic Cert.KernelIdeal

/-- The start row as a word computation on the tile number `l`, for a shift word `c`. -/
def row (l : Nat) (c : BitVec 32) : Nat :=
  (Scalar.indexCast (Scalar.addi (Scalar.addi (Scalar.muli (BitVec.ofNat 32 l) 512#32) 8#32) c) : Index).toNat

theorem off_eq (i : grid0.Coords) (c : BitVec 32) : k0_off1 i c = ![row (i 1).val c, 0] := rfl

theorem row_m3 : ∀ l : Fin 8, row l.val 4294967293#32 = 512 * l.val + 5 := by decide +kernel
theorem row_m2 : ∀ l : Fin 8, row l.val 4294967294#32 = 512 * l.val + 6 := by decide +kernel
theorem row_m1 : ∀ l : Fin 8, row l.val 4294967295#32 = 512 * l.val + 7 := by decide +kernel
theorem row_0 : ∀ l : Fin 8, row l.val 0#32 = 512 * l.val + 8 := by decide +kernel
theorem row_1 : ∀ l : Fin 8, row l.val 1#32 = 512 * l.val + 9 := by decide +kernel
theorem row_2 : ∀ l : Fin 8, row l.val 2#32 = 512 * l.val + 10 := by decide +kernel
theorem row_3 : ∀ l : Fin 8, row l.val 3#32 = 512 * l.val + 11 := by decide +kernel

theorem off_m3 (i : grid0.Coords) : k0_off1 i 4294967293#32 = ![512 * (i 1).val + 5, 0] := by rw [off_eq, row_m3 (i 1)]
theorem off_m2 (i : grid0.Coords) : k0_off1 i 4294967294#32 = ![512 * (i 1).val + 6, 0] := by rw [off_eq, row_m2 (i 1)]
theorem off_m1 (i : grid0.Coords) : k0_off1 i 4294967295#32 = ![512 * (i 1).val + 7, 0] := by rw [off_eq, row_m1 (i 1)]
theorem off_0 (i : grid0.Coords) : k0_off1 i 0#32 = ![512 * (i 1).val + 8, 0] := by rw [off_eq, row_0 (i 1)]
theorem off_1 (i : grid0.Coords) : k0_off1 i 1#32 = ![512 * (i 1).val + 9, 0] := by rw [off_eq, row_1 (i 1)]
theorem off_2 (i : grid0.Coords) : k0_off1 i 2#32 = ![512 * (i 1).val + 10, 0] := by rw [off_eq, row_2 (i 1)]
theorem off_3 (i : grid0.Coords) : k0_off1 i 3#32 = ![512 * (i 1).val + 11, 0] := by rw [off_eq, row_3 (i 1)]

instance (i : grid0.Coords) : ClosedOff (k0_off1 i 4294967293#32) := ⟨_, off_m3 i⟩
instance (i : grid0.Coords) : ClosedOff (k0_off1 i 4294967294#32) := ⟨_, off_m2 i⟩
instance (i : grid0.Coords) : ClosedOff (k0_off1 i 4294967295#32) := ⟨_, off_m1 i⟩
instance (i : grid0.Coords) : ClosedOff (k0_off1 i 0#32) := ⟨_, off_0 i⟩
instance (i : grid0.Coords) : ClosedOff (k0_off1 i 1#32) := ⟨_, off_1 i⟩
instance (i : grid0.Coords) : ClosedOff (k0_off1 i 2#32) := ⟨_, off_2 i⟩
instance (i : grid0.Coords) : ClosedOff (k0_off1 i 3#32) := ⟨_, off_3 i⟩

end Cert.KernelIdeal.Offsets
-- ==== Proof.SharedKernelIdeal.lean ====
/-
  What the two runs of the body share.

  The grid is 16 batch rows by 8 row tiles, visited batch row by batch row; point `t` is tile `t % 8` of batch row `t / 8`.
  The body rebuilds its padded copy of the batch row's sequence exactly at the first tile of each batch row, so the one
  branch of the body is taken at the points `t ≡ 0 (mod 8)` and skipped at the others.
-/
import proofs.«109366_j72507637891620_1_alg».proof.Proof.Gen.KernelIdeal.Frame
import proofs.«109366_j72507637891620_1_alg».proof.Proof.Gen.KernelIdeal.Skeleton
import proofs.«109366_j72507637891620_1_alg».proof.Proof.OffsetsKernelIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first tile of its batch row": the body's branch condition, as the program computes it from the
    tile coordinate. -/
abbrev firstTile (i : grid0.Coords) : Prop :=
  (Scalar.cmpi .ne (Scalar.extui (Scalar.cmpi .eq (BitVec.ofNat 32 (i 1).val) 0#32)) 0#32) = 1#1

/-- It holds exactly at the points that are multiples of 8. -/
theorem firstTile_iff : ∀ t : Fin cfg0.N, firstTile (grid0.coords t) ↔ t.val % 8 = 0 :=
  (by decide +kernel : ∀ t : Fin grid0.N, firstTile (grid0.coords t) ↔ t.val % 8 = 0)

/-- The staging memrefs the body is called with at point `t`, and the scratch holding the padded sequence. -/
abbrev inAt (t : Fin cfg0.N) : Memref sig .tc .vmem S1x4096x128 .f32 := win0_0.stage (cfg0.slots t 0)
abbrev inAt_whole (t : Fin cfg0.N) : (inAt t).IsWhole := hstage0_0 ((cfg0.slots t 0).cast nbuf0_0)
abbrev outAt (t : Fin cfg0.N) : Memref sig .tc .vmem S1x512x1152 .f32 := win0_1.stage (cfg0.slots t 1)
abbrev outAt_whole (t : Fin cfg0.N) : (outAt t).IsWhole := hstage0_1 ((cfg0.slots t 1).cast nbuf0_1)
abbrev padded : Memref sig .tc .vmem S4112x128 .f32 := Memref.whole cc0_scratch0

/-- Between batch rows nothing is known of the scratch: the region's plain invariant is the scratch at some contents and
    the generator register at some state. -/
theorem plain_eq (c : Dev nD) :
    (Pipeline.ΦA spec0 c : sProp 𝕄)
      = iprop(iprop((∃ d, owns (c : Thread nD τ) padded fullShare d)) ∗ (∃ r, prngReg c r)) := by
  unfold Pipeline.ΦA; rw [scopedRest0_eq]; simp only [padded, owns_whole]; try rfl

end Cert.KernelIdeal.Body

end
-- ==== Proof.RunFirstKernelIdeal.lean ====
/-
  The body at the first tile of a batch row (the branch taken).

  Whatever the scratch held, the body overwrites all of it: eight rows of zeros, the 4096 rows of the batch row's
  sequence, eight rows of zeros — three stores that tile the scratch (`LS`). It then loads nine windows of 512 rows of
  what it has just written, lays them side by side, and stores the result over the whole output block (`L1`). The
  input block is left as it was. Both piece lists are found by running the body.
-/
import proofs.«109366_j72507637891620_1_alg».proof.Proof.SharedKernelIdeal

set_option maxRecDepth 16384

noncomputable section

namespace Cert.KernelIdeal.Body

open Cert.KernelIdeal Cert.KernelIdeal.Gen Cert.KernelIdeal.Offsets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block and in the scratch when the branch is taken, with the proof that
    the body runs: the input block at `x0` is handed back unchanged; the output block and the scratch, at anything
    before, with their pieces written. -/
noncomputable def runFirst (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : firstTile i)
    (x0 : Vec F S1x4096x128 .f32) :
    Σ' (L1 : List (View.Piece (Elt F) S1x512x1152 .f32)), { LS : List (View.Piece (Elt F) S4112x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__tca_kernel i arg2 harg2 arg3 harg3 arg4 harg4) K } := by
  refine ⟨?_, ?_, fun E K => ?run⟩
  case run =>
    simp only [cc0__tca_kernel_eq_skeleton]; unfold cc0__tca_kernel_skel
    simp only [k0_part1_eq_skeleton]
    unfold owns
    iintro ⟨⟨%f0, %hf0, H0⟩, ⟨%d1, %f1, -, H1⟩, ⟨%ds0, %fs0, -, HS0⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact HS0

end Cert.KernelIdeal.Body

end
-- ==== Proof.RunLaterKernelIdeal.lean ====
/-
  The body at a later tile of a batch row (the branch skipped).

  The scratch already holds the padded sequence `P` of the batch row. The body loads nine windows of 512 rows of it, lays
  them side by side, and stores the result over the whole output block; the scratch and the input block are left as
  they were. What is stored is found by running the body; it is the one piece `L1`.
-/
import proofs.«109366_j72507637891620_1_alg».proof.Proof.SharedKernelIdeal

set_option maxRecDepth 16384

noncomputable section

namespace Cert.KernelIdeal.Body

open Cert.KernelIdeal Cert.KernelIdeal.Gen Cert.KernelIdeal.Offsets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block when the branch is skipped, with the proof that the body runs: the
    input block at `x0` and the scratch at `P` are handed back unchanged, the output block (at anything before) with
    the pieces written. -/
noncomputable def runLater (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : ¬firstTile i)
    (x0 : Vec F S1x4096x128 .f32) (P : Vec F S4112x128 .f32) :
    { L1 : List (View.Piece (Elt F) S1x512x1152 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare P
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare P) -∗ K ⟨⟩))
          ⊢ wp frame (wpE (defs₀ (F := F)) Variants.none c none) E (cc0__tca_kernel i arg2 harg2 arg3 harg3 arg4 harg4) K } := by
  refine ⟨?_, fun E K => ?run⟩
  case run =>
    simp only [cc0__tca_kernel_eq_skeleton]; unfold cc0__tca_kernel_skel
    simp only [k0_part1_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0)
    sl_step
    iapply Hk
    isplitl [H0]
    · iexists _; isplitr; · ipureintro; exact harg2.read_unread _
      iexact H0
    isplitl [H1]
    · iexists _; iexact H1
    iexists _; isplitr; · ipureintro; exact harg4.read_unread _
    iexact HS0

end Cert.KernelIdeal.Body

end
-- ==== Proof.PiecesKernelIdeal.lean ====
/-
  What the body's stored values are, as functions.

  * The three stores of the first tile — eight rows of the zero word, the batch row's 4096 rows, eight rows of the zero
    word — tile the scratch, and each agrees with the padded sequence `Spec.padOf` on its rows; so whatever was there
    before, the scratch reads as the padded sequence (`init_canon`).
  * Window `k` of a padded sequence `P` at tile `l` is its 512 rows from row `512·l + sh k` (`wnd_apply`); the nine
    windows side by side, column `c` taken from window `c / 128` at column `c % 128`, are tile `l` of the result read
    off `P` (`tile_payload`).
-/
import proofs.«109366_j72507637891620_1_alg».proof.Proof.Gen.KernelIdeal.Skeleton
import proofs.«109366_j72507637891620_1_alg».proof.Proof.OffsetsKernelIdeal
import proofs.«109366_j72507637891620_1_alg».proof.Proof.Spec
import Idealize.ShloMosaic.Lib.Pipeline.Value
import Idealize.ShloMosaic.Lib.Ring
import Idealize.ShloMosaic.Lib.Tactic

set_option maxRecDepth 16384

noncomputable section

namespace Cert.KernelIdeal.Pieces

open Idealize.ShloMosaic Idealize.ShloMosaic.ValueIdx Idealize.ShloMosaic.Tactic
open Cert.KernelIdeal Cert.KernelIdeal.Gen Cert.KernelIdeal.Offsets

variable {F : FTy → Type} [FloatOps F]

/-- The fill value: the zero word read as a float. -/
abbrev zf : F .f32 := Scalar.ofBits .f32 0x00000000#32

/-! ## Nine equal pieces side by side -/

/-- Nine arrays of 512 × 128 joined along the columns, read at row `r`, column `c`: array `c / 128` at row `r`, column
    `c % 128`. -/
theorem concat9_apply {α : Type} (v : Fin 9 → ((⟨2, ![512, 128]⟩ : Shape).Idx → α))
    (h : Shape.Concatenates (([⟨⟨2, ![512, 128]⟩, v 0⟩, ⟨⟨2, ![512, 128]⟩, v 1⟩, ⟨⟨2, ![512, 128]⟩, v 2⟩, ⟨⟨2, ![512, 128]⟩, v 3⟩, ⟨⟨2, ![512, 128]⟩, v 4⟩,
        ⟨⟨2, ![512, 128]⟩, v 5⟩, ⟨⟨2, ![512, 128]⟩, v 6⟩, ⟨⟨2, ![512, 128]⟩, v 7⟩, ⟨⟨2, ![512, 128]⟩, v 8⟩] : List ((s : Shape) × (s.Idx → α))).map (·.1)) ⟨2, ![512, 1152]⟩ 1)
    (q : (⟨2, ![512, 1152]⟩ : Shape).Idx) :
    concatenate ⟨2, ![512, 1152]⟩ 1 [⟨⟨2, ![512, 128]⟩, v 0⟩, ⟨⟨2, ![512, 128]⟩, v 1⟩, ⟨⟨2, ![512, 128]⟩, v 2⟩, ⟨⟨2, ![512, 128]⟩, v 3⟩, ⟨⟨2, ![512, 128]⟩, v 4⟩,
        ⟨⟨2, ![512, 128]⟩, v 5⟩, ⟨⟨2, ![512, 128]⟩, v 6⟩, ⟨⟨2, ![512, 128]⟩, v 7⟩, ⟨⟨2, ![512, 128]⟩, v 8⟩] h q
      = v ⟨(q 1).val / 128, by have := idx2_lt1 q; omega⟩
          (ix2 (⟨(q 0).val, idx2_lt0 q⟩ : Fin 512) (⟨(q 1).val % 128, Nat.mod_lt _ (by decide)⟩ : Fin 128)) :=
  concatenate_ofFn_apply (t := ⟨2, ![512, 1152]⟩) (s₁ := ⟨2, ![512, 128]⟩) (1 : Fin 2) v h rfl 128 rfl q
    ⟨(q 1).val / 128, by have := idx2_lt1 q; omega⟩ rfl
    (ix2 (⟨(q 0).val, idx2_lt0 q⟩ : Fin 512) (⟨(q 1).val % 128, Nat.mod_lt _ (by decide)⟩ : Fin 128)) rfl
    (fun b hb => match b, hb with
      | ⟨0, _⟩, _ => rfl
      | ⟨1, _⟩, hb => absurd rfl hb)

/-! ## The windows of a padded sequence -/

/-- The shift word of slot `k`. -/
def cw (k : Fin 9) : BitVec 32 :=
  ![4294967293#32, 4294967294#32, 4294967295#32, 0#32, 0#32, 0#32, 1#32, 2#32, 3#32] k

/-- Slot `k`'s window starts at padded row `512·l + sh k`, column 0. -/
theorem off_slot (i : grid0.Coords) (k : Fin 9) : k0_off1 i (cw k) = ![512 * (i 1).val + Spec.sh k.val, 0] := by
  match k with
  | ⟨0, _⟩ => exact off_m3 i
  | ⟨1, _⟩ => exact off_m2 i
  | ⟨2, _⟩ => exact off_m1 i
  | ⟨3, _⟩ => exact off_0 i
  | ⟨4, _⟩ => exact off_0 i
  | ⟨5, _⟩ => exact off_0 i
  | ⟨6, _⟩ => exact off_1 i
  | ⟨7, _⟩ => exact off_2 i
  | ⟨8, _⟩ => exact off_3 i

theorem inb_slot (i : grid0.Coords) (k : Fin 9) : ∀ a, (k0_off1 i (cw k)) a + S512x128.size a ≤ S4112x128.size a := by
  rw [off_slot]
  have hl : (i 1).val < 8 := (i 1).isLt
  have hs := Spec.sh_le k.val
  intro a
  match a with
  | ⟨0, _⟩ => show 512 * (i 1).val + Spec.sh k.val + 512 ≤ 4112; omega
  | ⟨1, _⟩ => show 0 + 128 ≤ 128; omega

/-- Window `k` of the padded sequence `P` at the point's tile: what the body's `k`-th load reads. -/
abbrev wnd (P : Vec F S4112x128 .f32) (i : grid0.Coords) (k : Fin 9) : Vec F S512x128 .f32 :=
  View.ld P (Rect.unit (s := S4112x128) (k0_off1 i (cw k)) S512x128.size (inb_slot i k))

theorem wnd_apply (P : Vec F S4112x128 .f32) (i : grid0.Coords) (k : Fin 9) (r : Fin 512) (d : Fin 128) :
    wnd P i k (ix2 r d)
      = P (ix2 (⟨512 * (i 1).val + r.val + Spec.sh k.val, by
            have hl : (i 1).val < 8 := (i 1).isLt; have hs := Spec.sh_le k.val; omega⟩ : Fin 4112) d) := by
  show P ((Rect.unit (s := S4112x128) (k0_off1 i (cw k)) S512x128.size (inb_slot i k)).idx (ix2 r d)) = _
  congr 1
  funext a
  have e := off_slot i k
  match a with
  | ⟨0, _⟩ =>
    apply Fin.ext
    show (k0_off1 i (cw k)) 0 + 1 * r.val = 512 * (i 1).val + r.val + Spec.sh k.val
    rw [congrFun e 0]; show 512 * (i 1).val + Spec.sh k.val + 1 * r.val = _; omega
  | ⟨1, _⟩ =>
    apply Fin.ext
    show (k0_off1 i (cw k)) 1 + 1 * d.val = d.val
    rw [congrFun e 1]; show 0 + 1 * d.val = d.val; omega

/-- The nine windows laid side by side, as a 1 × 512 × 1152 block, are the tile read off the padded sequence. -/
theorem tile_payload (P : Vec F S4112x128 .f32) (i : grid0.Coords) :
    k0_pay1 (wnd P i 0) (wnd P i 1) (wnd P i 2) (wnd P i 3) (wnd P i 4) (wnd P i 5) (wnd P i 6) (wnd P i 7) (wnd P i 8)
      = Spec.tileOf P (i 1).val (i 1).isLt := by
  funext y
  unfold k0_pay1
  refine (shapeCast_addUnit_apply ![512, 1152] _ _ y).trans ?_
  refine (concat9_apply (wnd P i) _ (fun a => y a.succ)).trans ?_
  refine (wnd_apply P i _ _ _).trans ?_
  unfold Spec.tileOf
  congr 1

/-! ## The padded sequence from its three stores -/

/-- The three stores of the first tile leave the padded sequence of the input block `x0`. -/
theorem init_canon (x0 : Vec F S1x4096x128 .f32) :
    View.canon (Val := Elt F) ([⟨Rect.unit (s := S4112x128) ![4104, 0] S8x128.size inb_S4112x128_S8x128_4104_0, k0_pay4 (F := F)⟩,
        ⟨Rect.unit (s := S4112x128) ![8, 0] S4096x128.size inb_S4112x128_S4096x128_8_0, k0_pay3 x0⟩,
        ⟨Rect.unit (s := S4112x128) ![0, 0] S8x128.size inb_S4112x128_S8x128_0_0, k0_pay2 (F := F)⟩] : List (View.Piece (Elt F) S4112x128 .f32))
      = Spec.padOf (zf (F := F)) x0 := by
  funext p
  refine View.canon_apply_of_pieces (Spec.padOf (zf (F := F)) x0) _ ?_ p
    (View.cover_of_tiledBy _ ![8, 128] (by sl_kernel_rfl) p)
  intro q hq x
  simp only [List.mem_cons, List.not_mem_nil, or_false] at hq
  rcases hq with rfl | rfl | rfl
  · -- the trailing fill rows
    have hx : (x 0).val < 8 := (x 0).isLt
    show k0_pay4 (F := F) x = _
    unfold k0_pay4 Spec.padOf
    rw [shapeCast_self, dif_neg (by
      show ¬(8 ≤ 4104 + 1 * (x 0).val ∧ 4104 + 1 * (x 0).val < 4104); omega)]
    rfl
  · -- the sequence's rows
    have hx : (x 0).val < 4096 := (x 0).isLt
    show k0_pay3 x0 x = _
    unfold k0_pay3 Spec.padOf
    rw [shapeCast_self, dif_pos (by
      show 8 ≤ 8 + 1 * (x 0).val ∧ 8 + 1 * (x 0).val < 4104; omega)]
    refine (shapeCast_dropUnit_apply ![4096, 128] x0 _ x).trans ?_
    congr 1
    funext a
    match a with
    | ⟨0, _⟩ => rfl
    | ⟨1, _⟩ => exact Fin.ext (by show (x 0).val = 8 + 1 * (x 0).val - 8; omega)
    | ⟨2, _⟩ => exact Fin.ext (by show (x 1).val = 0 + 1 * (x 1).val; omega)
  · -- the leading fill rows
    have hx : (x 0).val < 8 := (x 0).isLt
    show k0_pay2 (F := F) x = _
    unfold k0_pay2 Spec.padOf
    rw [shapeCast_self, dif_neg (by
      show ¬(8 ≤ 0 + 1 * (x 0).val ∧ 0 + 1 * (x 0).val < 4104); omega)]
    rfl

end Cert.KernelIdeal.Pieces

end
-- ==== Proof.BodyKernelIdeal.lean ====
/-
  The kernel's launch: the proof data, the body at every grid point, the run.

  The scratch carries the padded sequence of the current batch row from the row's first tile to its last. So the
  invariant before point `n + 1` is "the scratch holds `padOf 0 (row of point n)`", where the row of point `n` is the
  input block as the input window holds it at the row's first point `8·(n / 8)`; before point 0 nothing is known of
  the scratch, and after the last point it is forgotten again. With that:

  * at a first tile (`t ≡ 0 mod 8`) the body needs nothing of the scratch, overwrites it with the padded sequence of
    the block just fetched, and stores tile 0 read off it;
  * at a later tile the scratch is the same batch row's padded sequence (`(t - 1) / 8 = t / 8`), is left as it is, and
    the body stores tile `t % 8` read off it.

  Either way the output block after point `t` is `tileOf (padded sequence of t's batch row) (t % 8)`: the closed form
  the proof data states (`after 1 t`).
-/
import proofs.«109366_j72507637891620_1_alg».proof.Proof.RunFirstKernelIdeal
import proofs.«109366_j72507637891620_1_alg».proof.Proof.RunLaterKernelIdeal
import proofs.«109366_j72507637891620_1_alg».proof.Proof.PiecesKernelIdeal

set_option maxRecDepth 16384

noncomputable section

namespace Cert.KernelIdeal.Body

open Cert.KernelIdeal Cert.KernelIdeal.Gen Cert.KernelIdeal.Offsets Cert.KernelIdeal.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero3 : (![0, 0, 0] : Fin 3 → Nat) = fun _ => 0 := funext fun a => by fin_cases a <;> rfl

/-- The tile coordinate of point `t`. -/
theorem tile_coord : ∀ t : Fin cfg0.N, ((grid0.coords t) 1).val = t.val % 8 :=
  (by decide +kernel : ∀ t : Fin grid0.N, ((grid0.coords t) 1).val = t.val % 8)

theorem tileOf_congr {α : Type} (P : (⟨2, ![4112, 128]⟩ : Shape).Idx → α) {l l' : Nat} (h : l = l') (hl : l < 8) (hl' : l' < 8) :
    Spec.tileOf P l hl = Spec.tileOf P l' hl' := by subst h; rfl

/-! ## What the two runs found, as functions -/

theorem later_cover (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : ¬firstTile i)
    (x0 : Vec F S1x4096x128 .f32) (P : Vec F S4112x128 .f32) (y : S1x512x1152.Idx) :
    ∃ pc ∈ (runLater c i arg2 harg2 arg3 harg3 arg4 harg4 hc0 x0 P).1, y ∈ pc.1.set :=
  View.cover_of_tiledL _ S1x512x1152.size (by sl_kernel_rfl) y

/-- At a later tile the output block ends as the tile read off the scratch's sequence `P`. -/
theorem later_out {sig' : RefSig} {κ' : Kind} {sp' : Space} (v : View sig' κ' sp' S1x512x1152 .f32) (f : v.ty.Contents (Elt F))
    (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : ¬firstTile i)
    (x0 : Vec F S1x4096x128 .f32) (P : Vec F S4112x128 .f32) :
    v.read (Elt F) (v.writes (Elt F) f (runLater c i arg2 harg2 arg3 harg3 arg4 harg4 hc0 x0 P).1)
      = Spec.tileOf P (i 1).val (i 1).isLt := by
  rw [View.read_writes_eq_canon _ _ _ (later_cover c i arg2 harg2 arg3 harg3 arg4 harg4 hc0 x0 P)]
  unfold runLater; dsimp only
  sl_unfold_run_names
  rw [View.canon_unit_zero zero3]
  simp only [View.readAt_eq_ld, harg4.read_unread]
  exact tile_payload P i

theorem first_cover_out (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : firstTile i)
    (x0 : Vec F S1x4096x128 .f32) (y : S1x512x1152.Idx) :
    ∃ pc ∈ (runFirst c i arg2 harg2 arg3 harg3 arg4 harg4 hc0 x0).1, y ∈ pc.1.set :=
  View.cover_of_tiledL _ S1x512x1152.size (by sl_kernel_rfl) y

theorem first_cover_scratch (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : firstTile i)
    (x0 : Vec F S1x4096x128 .f32) (y : S4112x128.Idx) :
    ∃ pc ∈ (runFirst c i arg2 harg2 arg3 harg3 arg4 harg4 hc0 x0).2.1, y ∈ pc.1.set :=
  View.cover_of_tiledBy _ ![8, 128] (by sl_kernel_rfl) y

/-- At a first tile the scratch ends as the padded sequence of the input block, whatever it held. -/
theorem first_scratch {sig' : RefSig} {κ' : Kind} {sp' : Space} (v : View sig' κ' sp' S4112x128 .f32) (f : v.ty.Contents (Elt F))
    (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : firstTile i)
    (x0 : Vec F S1x4096x128 .f32) :
    v.read (Elt F) (v.writes (Elt F) f (runFirst c i arg2 harg2 arg3 harg3 arg4 harg4 hc0 x0).2.1)
      = Spec.padOf (zf (F := F)) x0 := by
  rw [View.read_writes_eq_canon _ _ _ (first_cover_scratch c i arg2 harg2 arg3 harg3 arg4 harg4 hc0 x0)]
  unfold runFirst; dsimp only
  sl_unfold_run_names
  simp only [View.readAt_eq_ld, harg2.read_unread, View.ld_unit_zero (S := S1x4096x128) zero3]
  exact init_canon x0

/-- and the output block as the tile read off that padded sequence. -/
theorem first_out {sig' : RefSig} {κ' : Kind} {sp' : Space} (v : View sig' κ' sp' S1x512x1152 .f32) (f : v.ty.Contents (Elt F))
    (c : Dev nD) (i : grid0.Coords) (arg2 : Memref sig .tc .vmem S1x4096x128 .f32) (harg2 : arg2.IsWhole) (arg3 : Memref sig .tc .vmem S1x512x1152 .f32) (harg3 : arg3.IsWhole) (arg4 : Memref sig .tc .vmem S4112x128 .f32) (harg4 : arg4.IsWhole) (hc0 : firstTile i)
    (x0 : Vec F S1x4096x128 .f32) :
    v.read (Elt F) (v.writes (Elt F) f (runFirst c i arg2 harg2 arg3 harg3 arg4 harg4 hc0 x0).1)
      = Spec.tileOf (Spec.padOf (zf (F := F)) x0) (i 1).val (i 1).isLt := by
  rw [View.read_writes_eq_canon _ _ _ (first_cover_out c i arg2 harg2 arg3 harg3 arg4 harg4 hc0 x0)]
  unfold runFirst; dsimp only
  sl_unfold_run_names
  rw [View.canon_unit_zero zero3]
  simp only [View.readAt_eq_ld, View.read_writes_junk_eq_canon, harg2.read_unread, View.ld_unit_zero (S := S1x4096x128) zero3]
  refine Eq.trans ?_ (tile_payload (F := F) (Spec.padOf (zf (F := F)) x0) i)
  rw [← init_canon (F := F) x0]
  rfl

/-! ## The batch row's padded sequence, point by point -/

/-- The batch row of point `n`, as the input window holds it at the row's first point. -/
def rowAt (c : Dev nD) (n : ℕ) (hn : n < cfg0.N) : Vec F S1x4096x128 .f32 :=
  iblk m c 0 ⟨8 * (n / 8), by have hN : cfg0.N = 128 := N_0; omega⟩

theorem rowAt_congr (c : Dev nD) (n n' : ℕ) (hn : n < cfg0.N) (hn' : n' < cfg0.N) (h : n / 8 = n' / 8) :
    rowAt m c n hn = rowAt m c n' hn' := by
  have e : ∀ t t' : Fin cfg0.N, t' = t → (iblk m c 0 t' : Vec F S1x4096x128 .f32) = iblk m c 0 t := fun t t' e => by subst e; rfl
  exact e _ _ (Fin.ext (by show 8 * (n / 8) = 8 * (n' / 8); omega))

theorem rowAt_first (c : Dev nD) (t : Fin cfg0.N) (h0 : t.val % 8 = 0) : rowAt m c t.val t.isLt = iblk m c 0 t := by
  have e : ∀ t' : Fin cfg0.N, t' = t → (iblk m c 0 t' : Vec F S1x4096x128 .f32) = iblk m c 0 t := fun t' e => by subst e; rfl
  exact e _ (Fin.ext (by show 8 * (t.val / 8) = t.val; omega))

/-- What the scratch holds after point `n`: the padded sequence of `n`'s batch row. -/
def scrAt (c : Dev nD) (n : ℕ) (hn : n < cfg0.N) : Vec F S4112x128 .f32 := Spec.padOf (zf (F := F)) (rowAt m c n hn)

/-- The region invariant before point `n`: before the first, nothing known of the scratch; afterwards the scratch at the
    padded sequence the point before left, and the generator register at some state. -/
def held (c : Dev nD) : (n : ℕ) → n ≤ cfg0.N → sProp 𝕄
  | 0, _ => Pipeline.ΦA spec0 c
  | n + 1, hn => iprop(iprop(owns (c : Thread nD τ) padded fullShare (scrAt m c n hn)) ∗ (∃ r, prngReg c r))

theorem held_zero (c : Dev nD) (n : ℕ) (h : n ≤ cfg0.N) (hz : n = 0) : held m c n h = Pipeline.ΦA spec0 c := by
  subst hz; rfl

theorem held_succ (c : Dev nD) (n : ℕ) (hn : n < cfg0.N) :
    held m c (n + 1) hn = iprop(iprop(owns (c : Thread nD τ) padded fullShare (scrAt m c n hn)) ∗ (∃ r, prngReg c r)) := rfl

theorem held_pos (c : Dev nD) (n : ℕ) (h : n ≤ cfg0.N) (hz : n ≠ 0) :
    held m c n h = iprop(iprop(owns (c : Thread nD τ) padded fullShare (scrAt m c (n - 1) (by omega))) ∗ (∃ r, prngReg c r)) := by
  cases n with
  | zero => exact absurd rfl hz
  | succ n => rfl

/-! ## The proof data -/

/-- On core `c`: the arrays as the region finds them; after the body at point `t` the input's buffer at its block and
    the output's at tile `t % 8` of the batch row's padded sequence; the invariant `held`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Spec.tileOf (scrAt m c t.val t.isLt) (t.val % 8) (Nat.mod_lt _ (by decide))
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; simp only [Fin.coe_castSucc]

theorem after_in (c : Dev nD) (t : Fin cfg0.N) : (dats m 0 c).after 0 t = iblk m c 0 t := by dsimp only [dats]
theorem after_out (c : Dev nD) (t : Fin cfg0.N) :
    (dats m 0 c).after 1 t = Spec.tileOf (scrAt m c t.val t.isLt) (t.val % 8) (Nat.mod_lt _ (by decide)) := by dsimp only [dats]

/-- The input's current staging buffer holds its block at every point, fetched there or not. -/
theorem before_in (c : Dev nD) (t : Fin cfg0.N) (d) : (dats m 0 c).before 0 t d = iblk m c 0 t :=
  before0_0_of m (dats m 0 c) (A_eq m c 0) (after_in m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (inAt t) fullShare ((dats m 0 c).before 0 t d))
    ∗ (∃ d, owns (c : Thread nD τ) (outAt t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (inAt t) fullShare ((dats m 0 c).after 0 t)
    ∗ owns (c : Thread nD τ) (outAt t) fullShare ((dats m 0 c).after 1 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = held m c (t.val + 1) t.isLt from rfl, held_succ]
  rw [after_in, after_out]
  have hN : t.val < 128 := lt_of_lt_of_eq t.isLt (show cfg0.N = 128 from N_0)
  by_cases h0 : t.val % 8 = 0
  · -- a first tile: the scratch is rebuilt from the block just fetched
    have hc : firstTile (grid0.coords t) := (firstTile_iff t).mpr h0
    rw [show scrAt m c t.val t.isLt = Spec.padOf (zf (F := F)) (iblk m c 0 t) from
      congrArg (Spec.padOf (zf (F := F))) (rowAt_first m c t h0)]
    by_cases hz : t.val = 0
    · rw [held_castSucc m c t, held_zero m c _ _ hz, plain_eq]
      iintro ⟨⟨HS0, Hg⟩, Ho, ⟨%d0, H0⟩, ⟨%d1, H1⟩⟩
      iapply ((runFirst c (grid0.coords t) _ _ _ _ _ _ hc (iblk m c 0 t)).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact first_scratch _ _ c _ _ _ _ _ _ _ hc _
        iexact Hg
      isplitl [Ho]; · iexact Ho
      isplitl [H0]; · iexact H0
      unfold owns; iexists _; isplitr
      swap; · iexact H1
      ipureintro; exact (first_out _ _ c _ _ _ _ _ _ _ hc _).trans (tileOf_congr _ (tile_coord t) _ _)
    · rw [held_castSucc m c t, held_pos m c _ _ hz]
      iintro ⟨⟨HS0, Hg⟩, Ho, ⟨%d0, H0⟩, ⟨%d1, H1⟩⟩
      iapply ((runFirst c (grid0.coords t) _ _ _ _ _ _ hc (iblk m c 0 t)).2.2 Set.univ _)
      isplitl [H0]; · iexact H0
      isplitl [H1]; · iexists _; iexact H1
      isplitl [HS0]; · iexists _; iexact HS0
      iintro ⟨H0, ⟨%e1, H1⟩, ⟨%es0, HS0⟩⟩
      isplitl [HS0 Hg]
      · isplitl [HS0]
        · unfold owns; iexists _; isplitr
          swap; · iexact HS0
          ipureintro; exact first_scratch _ _ c _ _ _ _ _ _ _ hc _
        iexact Hg
      isplitl [Ho]; · iexact Ho
      isplitl [H0]; · iexact H0
      unfold owns; iexists _; isplitr
      swap; · iexact H1
      ipureintro; exact (first_out _ _ c _ _ _ _ _ _ _ hc _).trans (tileOf_congr _ (tile_coord t) _ _)
  · -- a later tile: the scratch is the same batch row's, and stays
    have hc : ¬firstTile (grid0.coords t) := fun h => h0 ((firstTile_iff t).mp h)
    have hz : t.val ≠ 0 := by omega
    rw [held_castSucc m c t, held_pos m c _ _ hz]
    rw [show scrAt m c t.val t.isLt = scrAt m c (t.val - 1) (by omega) from
      congrArg (Spec.padOf (zf (F := F))) (rowAt_congr m c _ _ _ _ (by omega))]
    iintro ⟨⟨HS0, Hg⟩, Ho, ⟨%d0, H0⟩, ⟨%d1, H1⟩⟩
    iapply ((runLater c (grid0.coords t) _ _ _ _ _ _ hc (iblk m c 0 t) _).2 Set.univ _)
    isplitl [H0]; · iexact H0
    isplitl [H1]; · iexists _; iexact H1
    isplitl [HS0]; · iexact HS0
    iintro ⟨H0, ⟨%e1, H1⟩, HS0⟩
    isplitl [HS0 Hg]
    · isplitl [HS0]; · iexact HS0
      iexact Hg
    isplitl [Ho]; · iexact Ho
    isplitl [H0]; · iexact H0
    unfold owns; iexists _; isplitr
    swap; · iexact H1
    ipureintro; exact (later_out _ _ c _ _ _ _ _ _ _ hc _ _).trans (tileOf_congr _ (tile_coord t) _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

/-- After any point the invariant gives the plain one back: what the scratch holds is forgotten. -/
theorem held_out (c : Dev nD) (t : Fin (cfg0.N + 1)) (ht : t.val ≠ 0) : (dats m 0 c).Φ t ⊢ Pipeline.ΦA spec0 c := by
  rw [show (dats m 0 c).Φ t = held m c t.val (Nat.le_of_lt_succ t.isLt) from rfl, held_pos m c _ _ ht, plain_eq]
  iintro ⟨HS0, Hg⟩
  isplitl [HS0]
  · iexists _; iexact HS0
  iexact Hg

theorem hout (c : Dev nD) : (dats m 0 c).Φ (Fin.last cfg0.N) ⊢ Pipeline.ΦA spec0 c :=
  held_out m c _ (by rw [Fin.val_last]; have : cfg0.N = 128 := N_0; omega)

/-! ## The run and the frame -/

set_option backward.isDefEq.respectTransparency.types false in
/-- Every weakly fair execution of @main terminates, and every final state has every array of the pipeline at what the
    library computes from the proof data, every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates, nothing faults, and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.KernelResult.lean ====
/-
  The idealized kernel's result array, as one function of the argument array.

  Point `t` is tile `t % 8` of batch row `t / 8`: its input block is batch row `t / 8` of the argument, and its output
  block is rows `512·(t % 8) … 512·(t % 8) + 511` of batch row `t / 8` of the result. What the body leaves there is the
  tile read off the batch row's padded sequence, which is that block of `Spec.G` (`Spec.tile_eq`); the 128 blocks tile
  the result array, so after the run the result array is `Spec.G 0 x`.
-/
import proofs.«109366_j72507637891620_1_alg».proof.Proof.BodyKernelIdeal
import Idealize.ShloMosaic.Lib.Pipeline.Value

set_option maxRecDepth 16384

noncomputable section

namespace Cert.KernelIdeal.Result

open Cert.KernelIdeal Cert.KernelIdeal.Gen Cert.KernelIdeal.Body Cert.KernelIdeal.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument array on core `c`, as the region finds it. -/
abbrev arg (c : Dev nD) : S16x4096x128.Idx → Elt F .f32 := V m c main_arg0

/-- The block index maps, decided over the grid: the input window sits on batch row `t / 8`; the output window on
    batch row `t / 8`, tile `t % 8`. -/
theorem in_index : ∀ t : Fin cfg0.N, win0_0.index t (0 : Fin 3) = t.val / 8 ∧ win0_0.index t (1 : Fin 3) = 0 ∧ win0_0.index t (2 : Fin 3) = 0 :=
  (by decide +kernel : ∀ t : Fin grid0.N, _)
theorem out_index : ∀ t : Fin cfg0.N, win0_1.index t (0 : Fin 3) = t.val / 8 ∧ win0_1.index t (1 : Fin 3) = t.val % 8 ∧ win0_1.index t (2 : Fin 3) = 0 :=
  (by decide +kernel : ∀ t : Fin grid0.N, _)

/-- The input window's block at point `t` is batch row `t / 8` of the argument. -/
theorem iblk_eq (c : Dev nD) (t : Fin cfg0.N) :
    (iblk m c 0 t : Vec F S1x4096x128 .f32)
      = Spec.blockOf (arg m c) (t.val / 8) (by have hN : cfg0.N = 128 := N_0; have := t.isLt; omega) := by
  obtain ⟨e0, e1, e2⟩ := in_index t
  funext y
  show V m c main_arg0 (((cfg0.win 0).blk t).view.emb y) = V m c main_arg0 _
  congr 1
  funext a
  apply Fin.ext
  match a with
  | ⟨0, _⟩ =>
    show win0_0.index t (0 : Fin 3) * 1 + 1 * (y 0).val = t.val / 8
    have hy : (y 0).val < 1 := (y 0).isLt
    omega
  | ⟨1, _⟩ =>
    show win0_0.index t (1 : Fin 3) * 4096 + 1 * (y 1).val = (y 1).val
    omega
  | ⟨2, _⟩ =>
    show win0_0.index t (2 : Fin 3) * 128 + 1 * (y 2).val = (y 2).val
    omega

theorem blockOf_congr {α : Type} (x : (⟨3, ![16, 4096, 128]⟩ : Shape).Idx → α) {b b' : Nat} (h : b = b') (hb : b < 16) (hb' : b' < 16) :
    Spec.blockOf x b hb = Spec.blockOf x b' hb' := by subst h; rfl

/-- The batch row the scratch is built from at point `n` is batch row `n / 8` of the argument. -/
theorem rowAt_eq (c : Dev nD) (n : ℕ) (hn : n < cfg0.N) :
    rowAt m c n hn = Spec.blockOf (arg m c) (n / 8) (by have hN : cfg0.N = 128 := N_0; omega) := by
  unfold rowAt
  exact (iblk_eq m c _).trans (blockOf_congr _ (by show 8 * (n / 8) / 8 = n / 8; omega) _ _)

/-- What point `t` writes back is block `t` of `Spec.G` of the argument. -/
theorem flushed_eq (c : Dev nD) (t : Fin cfg0.N) :
    (dats m 0 c).flushed 1 t = ((cfg0.win 1).blk t).view.read (Elt F) (Spec.G (zf (F := F)) (arg m c)) := by
  have hN : cfg0.N = 128 := N_0
  have ht : t.val < 128 := lt_of_lt_of_eq t.isLt hN
  obtain ⟨e0, e1, e2⟩ := out_index t
  show (cfg0.win 1).cut (grid0.coords t) ((dats m 0 c).after 1 t) = _
  rw [after_out]
  funext y
  show Spec.tileOf (scrAt m c t.val t.isLt) (t.val % 8) _ y = Spec.G (zf (F := F)) (arg m c) (((cfg0.win 1).blk t).view.emb y)
  unfold scrAt
  rw [rowAt_eq]
  refine (Spec.tile_eq (zf (F := F)) (arg m c) (t.val / 8) (by omega) (t.val % 8) (Nat.mod_lt _ (by decide)) y _ ?_ ?_ ?_).symm
  · show win0_1.index t (0 : Fin 3) * 1 + 1 * (y 0).val = t.val / 8
    have hy : (y 0).val < 1 := (y 0).isLt
    omega
  · show win0_1.index t (1 : Fin 3) * 512 + 1 * (y 1).val = 512 * (t.val % 8) + (y 1).val
    omega
  · show win0_1.index t (2 : Fin 3) * 1152 + 1 * (y 2).val = (y 2).val
    omega

/-- An index of the result array is in point `t`'s block iff each coordinate is in the block's range on its axis. -/
theorem mem_blk (t : Fin cfg0.N) (i : S16x4096x1152.Idx) :
    i ∈ ((cfg0.win 1).blk t).view.set ↔ ∀ a : Fin 3, win0_1.index t a * S1x512x1152.size a ≤ (i a).val ∧ (i a).val < win0_1.index t a * S1x512x1152.size a + S1x512x1152.size a := by
  show i ∈ ((View.whole main_v0).slice (win0_1.rect t)).set ↔ _
  rw [View.set_slice_whole, Rect.mem_set_unit]
  exact Iff.rfl

/-- Every index of the result array is in the block of the point of its batch row and tile. -/
theorem covered (i : S16x4096x1152.Idx) :
    ∃ t : Fin cfg0.N, (cfg0.win 1).flush t = true ∧ i ∈ ((cfg0.win 1).blk t).view.set := by
  have hN : cfg0.N = 128 := N_0
  have h0 : (i 0).val < 16 := (i 0).isLt
  have h1 : (i 1).val < 4096 := (i 1).isLt
  have h2 : (i 2).val < 1152 := (i 2).isLt
  have hlt : 8 * (i 0).val + (i 1).val / 512 < cfg0.N := by omega
  obtain ⟨e0, e1, e2⟩ := out_index ⟨8 * (i 0).val + (i 1).val / 512, hlt⟩
  have e0' : win0_1.index ⟨8 * (i 0).val + (i 1).val / 512, hlt⟩ (0 : Fin 3) = (8 * (i 0).val + (i 1).val / 512) / 8 := e0
  have e1' : win0_1.index ⟨8 * (i 0).val + (i 1).val / 512, hlt⟩ (1 : Fin 3) = (8 * (i 0).val + (i 1).val / 512) % 8 := e1
  refine ⟨⟨8 * (i 0).val + (i 1).val / 512, hlt⟩, flush0_1 _, ?_⟩
  rw [mem_blk]
  intro a
  match a with
  | ⟨0, _⟩ =>
    show win0_1.index ⟨8 * (i 0).val + (i 1).val / 512, hlt⟩ (0 : Fin 3) * 1 ≤ (i 0).val ∧ (i 0).val < win0_1.index ⟨8 * (i 0).val + (i 1).val / 512, hlt⟩ (0 : Fin 3) * 1 + 1
    omega
  | ⟨1, _⟩ =>
    show win0_1.index ⟨8 * (i 0).val + (i 1).val / 512, hlt⟩ (1 : Fin 3) * 512 ≤ (i 1).val ∧ (i 1).val < win0_1.index ⟨8 * (i 0).val + (i 1).val / 512, hlt⟩ (1 : Fin 3) * 512 + 512
    omega
  | ⟨2, _⟩ =>
    show win0_1.index ⟨8 * (i 0).val + (i 1).val / 512, hlt⟩ (2 : Fin 3) * 1152 ≤ (i 2).val ∧ (i 2).val < win0_1.index ⟨8 * (i 0).val + (i 1).val / 512, hlt⟩ (2 : Fin 3) * 1152 + 1152
    omega

/-- The result array after the run. -/
theorem final (c : Dev nD) : (dats m 0 c).arrAt 1 cfg0.N = Spec.G (zf (F := F)) (arg m c) :=
  (dats m 0 c).arrAt_eq_of_cover 1 (Spec.G (zf (F := F)) (arg m c)) (fun t _ => flushed_eq m c t) covered

/-- The run, read: the result array is `Spec.G` of the argument array as launched, and the argument array is unchanged. -/
theorem run : θ_run defs (onTc (τ := τ) (main (F := F))) ⟨m, fun _ => 0, ρ⟩ fun r => ∀ c : Dev nD,
      r.2.mem ((c : Thread nD τ).loc main_v0) = Spec.G (zf (F := F)) (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Result

end
-- ==== Proof.RefValue.lean ====
/-
  The reference's result, index by index.

  The reference pads the sequence axis by three fill rows on each side (4102 rows), takes the nine windows of 4096
  rows that start at rows `0, 1, 2, 3, 3, 3, 4, 5, 6`, and joins them along the feature axis. Column `c = 128·k + d`
  of the join comes from window `k` at feature `d`; window `k` at row `i` is padded row `i + (sh k - 5)`; and padded row
  `q` is input row `q - 3` when `3 ≤ q < 4099`, the fill otherwise. Since `i + (sh k - 5) - 3 = i + sh k - 8`, this is
  `Spec.G` with the reference's fill value: the integer 0 converted to a float.
-/
import proofs.«109366_j72507637891620_1_alg».proof.Proof.Gen.ReferenceIdeal.Read
import proofs.«109366_j72507637891620_1_alg».proof.Proof.Spec
import Idealize.ShloMosaic.Lib.Pipeline.Value

set_option maxRecDepth 16384

noncomputable section

namespace Cert.RefValue

open Cert.ReferenceIdeal Cert.ReferenceIdeal.Gen Cert.ReferenceIdeal.Read
open Idealize.ShloMosaic Idealize.ShloMosaic.ValueIdx

variable {F : FTy → Type} [FloatOps F]

/-- The reference's fill value: the integer zero, converted. -/
abbrev fill : F .f32 := FloatOps.sitofp .f32 (0#32 : BitVec 32)

/-- The padded array at an index: the input three rows up where that row exists, the fill elsewhere. -/
theorem pad_apply (x0 : (⟨S16x4096x128, .f32⟩ : BufTy).Contents (Elt F)) (q : S16x4102x128.Idx) :
    val_main_v0 (F := F) x0 q
      = if h : 3 ≤ (q 1).val ∧ (q 1).val < 4099 then
          x0 (ix3 (⟨(q 0).val, Spec.lt3_0 q⟩ : Fin 16) (⟨(q 1).val - 3, by omega⟩ : Fin 4096) (⟨(q 2).val, Spec.lt3_2 q⟩ : Fin 128))
        else fill (F := F) := by
  have h0 : (q 0).val < 16 := (q 0).isLt
  have h2 : (q 2).val < 128 := (q 2).isLt
  unfold val_main_v0 pad
  by_cases h : 3 ≤ (q 1).val ∧ (q 1).val < 4099
  · rw [dif_pos h, dif_pos (fun a => match a with
      | ⟨0, _⟩ => ⟨by show 0 ≤ (q 0).val; omega, by show ((q 0).val - 0) % (0 + 1) = 0; omega, by show ((q 0).val - 0) / (0 + 1) < 16; omega⟩
      | ⟨1, _⟩ => ⟨by show 3 ≤ (q 1).val; omega, by show ((q 1).val - 3) % (0 + 1) = 0; omega, by show ((q 1).val - 3) / (0 + 1) < 4096; omega⟩
      | ⟨2, _⟩ => ⟨by show 0 ≤ (q 2).val; omega, by show ((q 2).val - 0) % (0 + 1) = 0; omega, by show ((q 2).val - 0) / (0 + 1) < 128; omega⟩)]
    congr 1
    funext a
    match a with
    | ⟨0, _⟩ => exact Fin.ext (by show ((q 0).val - 0) / (0 + 1) = (q 0).val; omega)
    | ⟨1, _⟩ => exact Fin.ext (by show ((q 1).val - 3) / (0 + 1) = (q 1).val - 3; omega)
    | ⟨2, _⟩ => exact Fin.ext (by show ((q 2).val - 0) / (0 + 1) = (q 2).val; omega)
  · rw [dif_neg h, dif_neg (fun hin => h (by
      have h1 := hin ⟨1, by decide⟩
      have a1 : 3 ≤ (q 1).val := h1.1
      have a2 : ((q 1).val - 3) / (0 + 1) < 4096 := h1.2.2
      omega))]
    rfl

/-- The nine windows, by slot. -/
def window (x0 : (⟨S16x4096x128, .f32⟩ : BufTy).Contents (Elt F)) (k : Fin 9) : S16x4096x128.Idx → Elt F .f32 :=
  ![val_main_v1 (F := F) x0, val_main_v2 (F := F) x0, val_main_v3 (F := F) x0, val_main_v4 (F := F) x0, val_main_v5 (F := F) x0,
    val_main_v6 (F := F) x0, val_main_v7 (F := F) x0, val_main_v8 (F := F) x0, val_main_v9 (F := F) x0] k

/-- Window `k` at row `i` is padded row `i + (sh k - 5)`. -/
theorem window_apply (x0 : (⟨S16x4096x128, .f32⟩ : BufTy).Contents (Elt F)) (k : Fin 9) (i : S16x4096x128.Idx) :
    window x0 k i
      = val_main_v0 (F := F) x0 (ix3 (⟨(i 0).val, Spec.lt3_0 i⟩ : Fin 16)
          (⟨(i 1).val + (Spec.sh k.val - 5), by have := Spec.lt3_1 i; have := Spec.sh_le k.val; omega⟩ : Fin 4102)
          (⟨(i 2).val, Spec.lt3_2 i⟩ : Fin 128)) := by
  match k with
  | ⟨0, _⟩ => exact (val_main_v1_apply x0 i).trans (congrArg _ (funext fun a => match a with
      | ⟨0, _⟩ => rfl | ⟨1, _⟩ => Fin.ext (by show (i 1).val = (i 1).val + (5 - 5); omega) | ⟨2, _⟩ => rfl))
  | ⟨1, _⟩ => exact (val_main_v2_apply x0 i).trans (congrArg _ (funext fun a => match a with
      | ⟨0, _⟩ => rfl | ⟨1, _⟩ => Fin.ext (by show 1 + (i 1).val = (i 1).val + (6 - 5); omega) | ⟨2, _⟩ => rfl))
  | ⟨2, _⟩ => exact (val_main_v3_apply x0 i).trans (congrArg _ (funext fun a => match a with
      | ⟨0, _⟩ => rfl | ⟨1, _⟩ => Fin.ext (by show 2 + (i 1).val = (i 1).val + (7 - 5); omega) | ⟨2, _⟩ => rfl))
  | ⟨3, _⟩ => exact (val_main_v4_apply x0 i).trans (congrArg _ (funext fun a => match a with
      | ⟨0, _⟩ => rfl | ⟨1, _⟩ => Fin.ext (by show 3 + (i 1).val = (i 1).val + (8 - 5); omega) | ⟨2, _⟩ => rfl))
  | ⟨4, _⟩ => exact (val_main_v5_apply x0 i).trans (congrArg _ (funext fun a => match a with
      | ⟨0, _⟩ => rfl | ⟨1, _⟩ => Fin.ext (by show 3 + (i 1).val = (i 1).val + (8 - 5); omega) | ⟨2, _⟩ => rfl))
  | ⟨5, _⟩ => exact (val_main_v6_apply x0 i).trans (congrArg _ (funext fun a => match a with
      | ⟨0, _⟩ => rfl | ⟨1, _⟩ => Fin.ext (by show 3 + (i 1).val = (i 1).val + (8 - 5); omega) | ⟨2, _⟩ => rfl))
  | ⟨6, _⟩ => exact (val_main_v7_apply x0 i).trans (congrArg _ (funext fun a => match a with
      | ⟨0, _⟩ => rfl | ⟨1, _⟩ => Fin.ext (by show 4 + (i 1).val = (i 1).val + (9 - 5); omega) | ⟨2, _⟩ => rfl))
  | ⟨7, _⟩ => exact (val_main_v8_apply x0 i).trans (congrArg _ (funext fun a => match a with
      | ⟨0, _⟩ => rfl | ⟨1, _⟩ => Fin.ext (by show 5 + (i 1).val = (i 1).val + (10 - 5); omega) | ⟨2, _⟩ => rfl))
  | ⟨8, _⟩ => exact (val_main_v9_apply x0 i).trans (congrArg _ (funext fun a => match a with
      | ⟨0, _⟩ => rfl | ⟨1, _⟩ => Fin.ext (by show 6 + (i 1).val = (i 1).val + (11 - 5); omega) | ⟨2, _⟩ => rfl))

/-- Nine arrays of 16 × 4096 × 128 joined along the features, read at feature `c`: array `c / 128` at feature `c % 128`. -/
theorem join9_apply {α : Type} (v : Fin 9 → ((⟨3, ![16, 4096, 128]⟩ : Shape).Idx → α))
    (h : Shape.Concatenates (([⟨⟨3, ![16, 4096, 128]⟩, v 0⟩, ⟨⟨3, ![16, 4096, 128]⟩, v 1⟩, ⟨⟨3, ![16, 4096, 128]⟩, v 2⟩, ⟨⟨3, ![16, 4096, 128]⟩, v 3⟩, ⟨⟨3, ![16, 4096, 128]⟩, v 4⟩,
        ⟨⟨3, ![16, 4096, 128]⟩, v 5⟩, ⟨⟨3, ![16, 4096, 128]⟩, v 6⟩, ⟨⟨3, ![16, 4096, 128]⟩, v 7⟩, ⟨⟨3, ![16, 4096, 128]⟩, v 8⟩] : List ((s : Shape) × (s.Idx → α))).map (·.1)) ⟨3, ![16, 4096, 1152]⟩ 2)
    (q : (⟨3, ![16, 4096, 1152]⟩ : Shape).Idx) :
    concatenate ⟨3, ![16, 4096, 1152]⟩ 2 [⟨⟨3, ![16, 4096, 128]⟩, v 0⟩, ⟨⟨3, ![16, 4096, 128]⟩, v 1⟩, ⟨⟨3, ![16, 4096, 128]⟩, v 2⟩, ⟨⟨3, ![16, 4096, 128]⟩, v 3⟩, ⟨⟨3, ![16, 4096, 128]⟩, v 4⟩,
        ⟨⟨3, ![16, 4096, 128]⟩, v 5⟩, ⟨⟨3, ![16, 4096, 128]⟩, v 6⟩, ⟨⟨3, ![16, 4096, 128]⟩, v 7⟩, ⟨⟨3, ![16, 4096, 128]⟩, v 8⟩] h q
      = v ⟨(q 2).val / 128, by have := Spec.lt3_2 q; omega⟩
          (ix3 (⟨(q 0).val, Spec.lt3_0 q⟩ : Fin 16) (⟨(q 1).val, Spec.lt3_1 q⟩ : Fin 4096) (⟨(q 2).val % 128, Nat.mod_lt _ (by decide)⟩ : Fin 128)) :=
  concatenate_ofFn_apply (t := ⟨3, ![16, 4096, 1152]⟩) (s₁ := ⟨3, ![16, 4096, 128]⟩) (2 : Fin 3) v h rfl 128 rfl q
    ⟨(q 2).val / 128, by have := Spec.lt3_2 q; omega⟩ rfl
    (ix3 (⟨(q 0).val, Spec.lt3_0 q⟩ : Fin 16) (⟨(q 1).val, Spec.lt3_1 q⟩ : Fin 4096) (⟨(q 2).val % 128, Nat.mod_lt _ (by decide)⟩ : Fin 128)) rfl
    (fun b hb => match b, hb with
      | ⟨0, _⟩, _ => rfl
      | ⟨1, _⟩, _ => rfl
      | ⟨2, _⟩, hb => absurd rfl hb)

/-- The reference's result is `Spec.G` of its argument, with the reference's fill. -/
theorem result_eq (x0 : (⟨S16x4096x128, .f32⟩ : BufTy).Contents (Elt F)) :
    val_main_v10 (F := F) x0 = Spec.G (fill (F := F)) x0 := by
  funext j
  have hj1 : (j 1).val < 4096 := (j 1).isLt
  have hs1 := Spec.sh_le ((j 2).val / 128)
  have hs2 := Spec.sh_ge ((j 2).val / 128)
  unfold val_main_v10
  refine (join9_apply (window x0) _ j).trans ?_
  rw [window_apply, pad_apply]
  unfold Spec.G
  by_cases h : 8 ≤ (j 1).val + Spec.sh ((j 2).val / 128) ∧ (j 1).val + Spec.sh ((j 2).val / 128) < 4104
  · rw [dif_pos h, dif_pos (by
      show 3 ≤ (j 1).val + (Spec.sh ((j 2).val / 128) - 5) ∧ (j 1).val + (Spec.sh ((j 2).val / 128) - 5) < 4099
      omega)]
    congr 1
    funext a
    match a with
    | ⟨0, _⟩ => rfl
    | ⟨1, _⟩ => exact Fin.ext (by
        show (j 1).val + (Spec.sh ((j 2).val / 128) - 5) - 3 = (j 1).val + Spec.sh ((j 2).val / 128) - 8
        omega)
    | ⟨2, _⟩ => rfl
  · rw [dif_neg h, dif_neg (by
      show ¬(3 ≤ (j 1).val + (Spec.sh ((j 2).val / 128) - 5) ∧ (j 1).val + (Spec.sh ((j 2).val / 128) - 5) < 4099)
      omega)]

end Cert.RefValue

end
-- ==== Proof.lean ====
/-
  A sliding-window context expansion: kernel against reference.

  Both programs send `x : f32[16, 4096, 128]` to `f32[16, 4096, 1152]`: output row `i`, column `128·k + d` is input row
  `i + o k`, feature `d`, where that row exists, and zero elsewhere, with `o = (-3, -2, -1, 0, 0, 0, 1, 2, 3)` (`Spec.G`).
  No arithmetic is done on the entries: they are moved, or replaced by the fill value. So the two idealized programs
  agree on every argument array, finite or not, as soon as their fill values agree; the kernel's is the zero word read
  as a float and the reference's the integer zero converted, both the extended real `0` (`fills`).

  * The kernel (`Proof/Body….lean`, `Proof/KernelResult.lean`): per batch row it builds, at the row's first tile, a copy
    of the sequence padded by eight zero rows on each side, keeps it in scratch for the row's eight tiles, and writes
    each tile as nine shifted windows of the padded copy side by side. The result array ends as `Spec.G 0 x`.
  * The reference (`Proof/RefValue.lean`): nine windows of the sequence padded by three zero rows on each side, joined
    along the features: `Spec.G 0 x` again.
  * The frames: the kernel's two, at the word level and idealized, are its run with the result forgotten (the body is
    run the same way at both readings of a float); the reference's is its run with the result forgotten.
  * The idealized kernel is the kernel's own text read over the extended reals: the ideal pass rewrote nothing.
-/
import proofs.«109366_j72507637891620_1_alg».proof.Defs
import proofs.«109366_j72507637891620_1_alg».proof.Proof.Gen.Kernel
import proofs.«109366_j72507637891620_1_alg».proof.Proof.Gen.KernelIdeal
import proofs.«109366_j72507637891620_1_alg».proof.Proof.Gen.ReferenceIdeal
import proofs.«109366_j72507637891620_1_alg».proof.Proof.Gen.Pre_finite_inputs
import proofs.«109366_j72507637891620_1_alg».proof.Proof.Gen.ReferenceIdeal.Run
import proofs.«109366_j72507637891620_1_alg».proof.Proof.BodyKernel
import proofs.«109366_j72507637891620_1_alg».proof.Proof.KernelResult
import proofs.«109366_j72507637891620_1_alg».proof.Proof.RefValue
import Idealize.ShloMosaic.PureOps.Ideal.Laws
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Body.frame m ρ

theorem frame_kernelIdeal : Cert.frame_KernelIdeal := fun m ρ _ => Cert.KernelIdeal.Body.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two fill values are one extended real: the integer zero converted, and the zero word read as a float, are `0`. -/
theorem fills : Cert.RefValue.fill (F := Ideal) = Cert.KernelIdeal.Pieces.zf (F := Ideal) := by
  show (((0#32 : BitVec 32).toInt : ℝ) : EReal) = Ideal.ofBits .f32 0x00000000#32
  rw [Ideal.ofBits_zero_f32]
  simp

/-- From memories agreeing on the argument, both idealized programs end with the result array at `Spec.G 0 x`. -/
theorem algebraic : Cert.algebraic_KernelIdeal_ReferenceIdeal := by
  intro m ρ m' ρ' _ hagree
  refine ⟨fun c => Cert.Spec.G (Cert.KernelIdeal.Pieces.zf (F := Ideal)) (m ((c.tc : Thread Cert.KernelIdeal.nD Cert.KernelIdeal.τ).loc Cert.KernelIdeal.main_arg0)),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.RefValue.result_eq, fills, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
